-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x4 : Shape := ⟨2, ![1600000, 4]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S1600000x4 .f32) (main_arg3 : FVec F S1600000 .f32) (main_arg4 : FVec F S64x128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S1600000x4 : Shape := ⟨2, ![1600000, 4]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩

abbrev nBuf : Space → Nat
  | .hbm => 50
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x4, .f32⟩
  | .hbm, ⟨3, _⟩ => ⟨S1600000, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x128, .f32⟩
  | .hbm, ⟨35, _⟩ => ⟨S100000x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S100000x128, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  bcast_S_S1x128 : S_.BroadcastsInDim S1x128 (![] : Fin 0 → Fin S1x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v19) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x4 : Shape := ⟨2, ![1600000, 4]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x4, .f32⟩
  | .hbm, ⟨3, _⟩ => ⟨S1600000, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_cst_3 : Ref sig .tc := ⟨.hbm, 60, rfl⟩
abbrev main_call0_v12 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_call1_cst : Ref sig .tc := ⟨.hbm, 82, rfl⟩
abbrev main_call1_v0 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with every buffer's final contents named.

  @main is four segments: the host operations that build the aggregated node features, the first pallas_call
  (the first linear layer and the column sums of its result and of its squares, accumulated over the fifty row
  tiles), the host operations that turn the two sums into a mean and a variance, and the second pallas_call
  (normalisation, the rectifier and the second linear layer, tile by tile). The contents of every buffer at each
  boundary are a fold from the launch memory; here the run is stated with the LAST boundary's contents kept for
  every buffer that outlives the call, so that the result array can be read off it.
-/
import proofs.«102576_j28432683499905_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final state every buffer that
    outlives the call holds the last boundary's contents `W4`: the launch over the four segments, the last thread
    state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result array and at the ten argument arrays: the result holds what the second
    pallas_call's write-backs leave in its output array, and no argument has changed. -/
theorem run_result : θ_run defs (onTc (τ := τ) (main (F := F))) ⟨m, fun _ => 0, ρ⟩ (fun r => ∀ c : Dev nD,
      r.2.mem ((c.tc : Thread nD τ).loc main_v31) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v31 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_all m ρ)

end Cert.KernelIdeal.KRun

end
-- ==== Proof.KReg1.lean ====
/-
  The second pallas_call's result array as one function of the arrays it reads.

  At a row tile the body loads a 2000 × 128 block of the first layer's output, the mean and the variance rows,
  the scale and shift rows, the second weight matrix and the second bias row, and stores, at row r and column j,
      Σ_k max(((h r k − mean k) · rsqrt(var k + ε)) · γ k + β k, 0) · W2 k j + b2 j .
  Row r of tile t is row 2000·t + r of the array, and the fifty tiles cover every row exactly once, so the array
  after the call is that expression of the whole arrays, index by index.
-/
import proofs.«102576_j28432683499905_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

/-! ## The arithmetic of one output row -/

/-- One entry of the normalised, rectified and projected row: the contraction over the 128 features of
    `max(((h k − mean k) · rsqrt(var k + ε)) · γ k + β k, 0) · W2 k j`, plus the bias `b2 j`. -/
def row1 (hrow mean var g b : Fin 128 → EReal) (W2 : Fin 128 → Fin 128 → EReal) (b2 : Fin 128 → EReal) (j : Fin 128) : EReal :=
  (∑ k : Fin 128, max (((hrow k - mean k) * Ideal.rsqrt (var k + Ideal.ofBits .f32 0x3727C5AC#32)) * g k + b k)
      (Ideal.ofBits .f32 0x00000000#32) * W2 k j) + b2 j

/-- The second matrix product's contraction index is its one coordinate: the sum over it is the sum over the
    128 features of the left row's entry times the right column's. -/
theorem dot2_sum (lhs : S2000x128.Idx → EReal) (rhs : S128x128.Idx → EReal) (r : Fin 2000) (j : Fin 128) :
    (∑ k : dot_S2000x128_S128x128_S2000x128_1_0_0_1_n_n.contr.Idx,
        lhs (dot_S2000x128_S128x128_S2000x128_1_0_0_1_n_n.lhsIdx (ix2 r j) k) * rhs (dot_S2000x128_S128x128_S2000x128_1_0_0_1_n_n.rhsIdx (ix2 r j) k))
      = ∑ k : Fin 128, lhs (ix2 r k) * rhs (ix2 k j) := by
  rw [← Equiv.sum_comp (contrEquiv1 dot_S2000x128_S128x128_S2000x128_1_0_0_1_n_n 128 rfl rfl).symm]
  refine Finset.sum_congr rfl fun k _ => ?_
  have e1 : dot_S2000x128_S128x128_S2000x128_1_0_0_1_n_n.lhsIdx (ix2 r j) ((contrEquiv1 dot_S2000x128_S128x128_S2000x128_1_0_0_1_n_n 128 rfl rfl).symm k) = ix2 r k := by
    funext a; apply Fin.ext
    match a with
    | ⟨0, _⟩ => rfl
    | ⟨1, _⟩ => exact (DotDims.lhsIdx_val_of_single _ rfl _ _).trans (contrEquiv1_symm_val _ 128 rfl rfl k)
  have e2 : dot_S2000x128_S128x128_S2000x128_1_0_0_1_n_n.rhsIdx (ix2 r j) ((contrEquiv1 dot_S2000x128_S128x128_S2000x128_1_0_0_1_n_n 128 rfl rfl).symm k) = ix2 k j := by
    funext a; apply Fin.ext
    match a with
    | ⟨0, _⟩ => exact (DotDims.rhsIdx_val_of_single _ rfl _ _).trans (contrEquiv1_symm_val _ 128 rfl rfl k)
    | ⟨1, _⟩ => rfl
  rw [e1, e2]

/-- A 1 × 128 row, recast to its own shape and broadcast over the 2000 rows of a tile, reads the row's entry at
    the column, whatever the row. -/
theorem row_bcast (v : FVec Ideal S1x128 .f32) (r : Fin 2000) (k : Fin 128) :
    broadcastTo S2000x128 (shapeCast S1x128 v Facts₀.shapeCasts_S1x128_S1x128) Facts₀.broadcasts_S1x128_S2000x128 (ix2 r k)
      = v (ix2 (0 : Fin 1) k) := by
  rw [shapeCast_self]
  exact broadcastTo_1b_ab_apply v _ r k

/-- The body's stored value at row `r`, column `j` of the tile is `row1` of the loaded block's row `r` and of the
    loaded rows and matrix. (The arguments are in the order the body loads them: the block, the variance row, the
    mean row, the scale, the shift, the weights, the bias.) -/
theorem pay1_apply (x0 : FVec Ideal S2000x128 .f32) (xv xm xg xb : FVec Ideal S1x128 .f32) (x5 : FVec Ideal S128x128 .f32)
    (x6 : FVec Ideal S1x128 .f32) (r : Fin 2000) (j : Fin 128) :
    k1_pay1 (F := Ideal) x0 xv xm xg xb x5 x6 (ix2 r j)
      = row1 (fun k => x0 (ix2 r k)) (fun k => xm (ix2 (0 : Fin 1) k)) (fun k => xv (ix2 (0 : Fin 1) k))
          (fun k => xg (ix2 (0 : Fin 1) k)) (fun k => xb (ix2 (0 : Fin 1) k)) (fun k k' => x5 (ix2 k k'))
          (fun k => x6 (ix2 (0 : Fin 1) k)) j := by
  unfold k1_pay1 row1
  refine congrArg₂ (· + ·) ?_ (row_bcast x6 r j)
  refine (Ideal.matmul_constant_zero_apply _ none _ _ (ix2 r j)).trans ?_
  refine (dot2_sum _ _ r j).trans ?_
  refine Finset.sum_congr rfl fun k _ => ?_
  refine congrArg₂ (· * ·) ?_ rfl
  refine congrArg (max · (Ideal.ofBits .f32 0x00000000#32)) ?_
  refine congrArg₂ (· + ·) (congrArg₂ (· * ·) (congrArg₂ (· * ·) (congrArg₂ (· - ·) ?_ ?_) ?_) ?_) ?_
  · exact congrFun (shapeCast_self x0 _) (ix2 r k)
  · exact row_bcast xm r k
  · refine (broadcastTo_1b_ab_apply _ _ r k).trans ?_
    refine congrArg Ideal.rsqrt (congrArg₂ (· + ·) ?_ rfl)
    exact congrFun (shapeCast_self xv _) (ix2 (0 : Fin 1) k)
  · exact row_bcast xg r k
  · exact row_bcast xb r k

/-! ## The whole array -/

/-- The result array as a function of the arrays the call reads: `row1` of row `i 0` of the first layer's output. -/
def G1 (h : S100000x128.Idx → EReal) (mean var g b : S1x128.Idx → EReal) (W2 : S128x128.Idx → EReal)
    (b2 : S1x128.Idx → EReal) : S100000x128.Idx → EReal :=
  fun i => row1 (fun k => h (ix2 (i 0 : Fin 100000) k)) (fun k => mean (ix2 (0 : Fin 1) k)) (fun k => var (ix2 (0 : Fin 1) k))
    (fun k => g (ix2 (0 : Fin 1) k)) (fun k => b (ix2 (0 : Fin 1) k)) (fun k k' => W2 (ix2 k k'))
    (fun k => b2 (ix2 (0 : Fin 1) k)) (i 1 : Fin 128)

/-- `G1` at an index whose two coordinates are known. -/
theorem G1_at (h : S100000x128.Idx → EReal) (mean var g b : S1x128.Idx → EReal) (W2 : S128x128.Idx → EReal)
    (b2 : S1x128.Idx → EReal) (i : S100000x128.Idx) (p : Fin 100000) (j : Fin 128)
    (h0 : (i 0 : Fin 100000) = p) (h1 : (i 1 : Fin 128) = j) :
    G1 h mean var g b W2 b2 i
      = row1 (fun k => h (ix2 p k)) (fun k => mean (ix2 (0 : Fin 1) k)) (fun k => var (ix2 (0 : Fin 1) k))
          (fun k => g (ix2 (0 : Fin 1) k)) (fun k => b (ix2 (0 : Fin 1) k)) (fun k k' => W2 (ix2 k k'))
          (fun k => b2 (ix2 (0 : Fin 1) k)) j := by
  subst h0 h1; rfl

/-! ## From the tiles to the array -/

section Region
-- the contents of every buffer when the call is entered
variable (V : (c : Dev nD) → (b : Ref sig .tc) → Buf (Elt Ideal) ((c : Thread nD τ).loc b))

theorem zero_off : (![0, 0] : Fin 2 → Nat) = fun _ => 0 := funext fun a => by fin_cases a <;> rfl

/-- The index maps over the fifty row tiles: the block of the first layer's output and the result's block are tile
    `t`'s rows, every other operand is its one whole block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of tile `t`'s block of the first layer's output is row `2000·t + r` of the array. -/
theorem blk1_0 (c : Dev nD) (t : Fin cfg1.N) (r : Fin 2000) (p : Fin 100000) (hp : p.val = 2000 * t.val + r.val) (k : Fin 128) :
    iblk1 V c 0 t (ix2 r k) = V c main_v21_0 (ix2 p k) := by
  show V c main_v21_0 (((cfg1.win 0).blk t).view.emb (ix2 r k)) = _
  refine congrArg (V c main_v21_0) (funext fun a => Fin.ext ?_)
  obtain ⟨e0, e1, -⟩ := idx_facts1 t
  match a with
  | ⟨0, _⟩ => show win1_0.index t (0 : Fin 2) * 2000 + 1 * r.val = p.val; omega
  | ⟨1, _⟩ => show win1_0.index t (1 : Fin 2) * 128 + 1 * k.val = k.val; omega

/-- The mean row's block is the row. -/
theorem blk1_1 (c : Dev nD) (t : Fin cfg1.N) (k : Fin 128) :
    iblk1 V c 1 t (ix2 (0 : Fin 1) k) = V c main_v23 (ix2 (0 : Fin 1) k) := by
  show V c main_v23 (((cfg1.win 1).blk t).view.emb (ix2 (0 : Fin 1) k)) = _
  refine congrArg (V c main_v23) (funext fun a => Fin.ext ?_)
  obtain ⟨-, -, e0, e1, -⟩ := idx_facts1 t
  match a with
  | ⟨0, _⟩ => show win1_1.index t (0 : Fin 2) * 1 + 1 * (0 : Fin 1).val = (0 : Fin 1).val; omega
  | ⟨1, _⟩ => show win1_1.index t (1 : Fin 2) * 128 + 1 * k.val = k.val; omega

/-- The variance row's block is the row. -/
theorem blk1_2 (c : Dev nD) (t : Fin cfg1.N) (k : Fin 128) :
    iblk1 V c 2 t (ix2 (0 : Fin 1) k) = V c main_v27 (ix2 (0 : Fin 1) k) := by
  show V c main_v27 (((cfg1.win 2).blk t).view.emb (ix2 (0 : Fin 1) k)) = _
  refine congrArg (V c main_v27) (funext fun a => Fin.ext ?_)
  obtain ⟨-, -, -, -, e0, e1, -⟩ := idx_facts1 t
  match a with
  | ⟨0, _⟩ => show win1_2.index t (0 : Fin 2) * 1 + 1 * (0 : Fin 1).val = (0 : Fin 1).val; omega
  | ⟨1, _⟩ => show win1_2.index t (1 : Fin 2) * 128 + 1 * k.val = k.val; omega

/-- The scale row's block is the row. -/
theorem blk1_3 (c : Dev nD) (t : Fin cfg1.N) (k : Fin 128) :
    iblk1 V c 3 t (ix2 (0 : Fin 1) k) = V c main_v28 (ix2 (0 : Fin 1) k) := by
  show V c main_v28 (((cfg1.win 3).blk t).view.emb (ix2 (0 : Fin 1) k)) = _
  refine congrArg (V c main_v28) (funext fun a => Fin.ext ?_)
  obtain ⟨-, -, -, -, -, -, e0, e1, -⟩ := idx_facts1 t
  match a with
  | ⟨0, _⟩ => show win1_3.index t (0 : Fin 2) * 1 + 1 * (0 : Fin 1).val = (0 : Fin 1).val; omega
  | ⟨1, _⟩ => show win1_3.index t (1 : Fin 2) * 128 + 1 * k.val = k.val; omega

/-- The shift row's block is the row. -/
theorem blk1_4 (c : Dev nD) (t : Fin cfg1.N) (k : Fin 128) :
    iblk1 V c 4 t (ix2 (0 : Fin 1) k) = V c main_v29 (ix2 (0 : Fin 1) k) := by
  show V c main_v29 (((cfg1.win 4).blk t).view.emb (ix2 (0 : Fin 1) k)) = _
  refine congrArg (V c main_v29) (funext fun a => Fin.ext ?_)
  obtain ⟨-, -, -, -, -, -, -, -, e0, e1, -⟩ := idx_facts1 t
  match a with
  | ⟨0, _⟩ => show win1_4.index t (0 : Fin 2) * 1 + 1 * (0 : Fin 1).val = (0 : Fin 1).val; omega
  | ⟨1, _⟩ => show win1_4.index t (1 : Fin 2) * 128 + 1 * k.val = k.val; omega

/-- The second weight matrix's block is the matrix. -/
theorem blk1_5 (c : Dev nD) (t : Fin cfg1.N) (k k' : Fin 128) :
    iblk1 V c 5 t (ix2 k k') = V c main_arg8 (ix2 k k') := by
  show V c main_arg8 (((cfg1.win 5).blk t).view.emb (ix2 k k')) = _
  refine congrArg (V c main_arg8) (funext fun a => Fin.ext ?_)
  obtain ⟨-, -, -, -, -, -, -, -, -, -, e0, e1, -⟩ := idx_facts1 t
  match a with
  | ⟨0, _⟩ => show win1_5.index t (0 : Fin 2) * 128 + 1 * k.val = k.val; omega
  | ⟨1, _⟩ => show win1_5.index t (1 : Fin 2) * 128 + 1 * k'.val = k'.val; omega

/-- The second bias row's block is the row. -/
theorem blk1_6 (c : Dev nD) (t : Fin cfg1.N) (k : Fin 128) :
    iblk1 V c 6 t (ix2 (0 : Fin 1) k) = V c main_v30 (ix2 (0 : Fin 1) k) := by
  show V c main_v30 (((cfg1.win 6).blk t).view.emb (ix2 (0 : Fin 1) k)) = _
  refine congrArg (V c main_v30) (funext fun a => Fin.ext ?_)
  obtain ⟨-, -, -, -, -, -, -, -, -, -, -, -, e0, e1, -⟩ := idx_facts1 t
  match a with
  | ⟨0, _⟩ => show win1_6.index t (0 : Fin 2) * 1 + 1 * (0 : Fin 1).val = (0 : Fin 1).val; omega
  | ⟨1, _⟩ => show win1_6.index t (1 : Fin 2) * 128 + 1 * k.val = k.val; omega

/-- What tile `t` writes back is tile `t`'s rows of `G1` of the arrays as the call finds them. -/
theorem flushed1_eq (c : Dev nD) (t : Fin cfg1.N) :
    (dat1 V c).flushed 7 t = ((cfg1.win 7).blk t).view.read (Elt Ideal)
      (G1 (V c main_v21_0) (V c main_v23) (V c main_v27) (V c main_v28) (V c main_v29) (V c main_arg8) (V c main_v30)) := by
  show (cfg1.win 7).cut (grid1.coords t) ((dat1 V c).after 7 t) = _
  rw [after1_7]
  unfold out1_7
  rw [View.canon_unit_zero zero_off]
  simp only [View.ld_unit_zero (S := S2000x128) zero_off, View.ld_unit_zero (S := S1x128) zero_off,
    View.ld_unit_zero (S := S128x128) zero_off]
  funext y
  obtain ⟨r, j, rfl⟩ : ∃ (r : Fin 2000) (j : Fin 128), y = ix2 r j := ⟨y 0, y 1, eq_ix2 y⟩
  have hN : cfg1.N = 50 := N_1
  have hp : 2000 * t.val + r.val < 100000 := by have := t.isLt; have := r.isLt; omega
  obtain ⟨-, -, -, -, -, -, -, -, -, -, -, -, -, -, e70, e71⟩ := idx_facts1 t
  refine (pay1_apply (iblk1 V c 0 t) (iblk1 V c 2 t) (iblk1 V c 1 t) (iblk1 V c 3 t) (iblk1 V c 4 t) (iblk1 V c 5 t)
    (iblk1 V c 6 t) r j).trans ?_
  refine Eq.trans ?_ (G1_at (V c main_v21_0) (V c main_v23) (V c main_v27) (V c main_v28) (V c main_v29) (V c main_arg8)
    (V c main_v30) (((cfg1.win 7).blk t).view.emb (ix2 r j)) ⟨2000 * t.val + r.val, hp⟩ j
    (Fin.ext (by show win1_7.index t (0 : Fin 2) * 2000 + 1 * r.val = 2000 * t.val + r.val; omega))
    (Fin.ext (by show win1_7.index t (1 : Fin 2) * 128 + 1 * j.val = j.val; omega))).symm
  simp only [blk1_0 V c t r ⟨2000 * t.val + r.val, hp⟩ rfl, blk1_1 V c t, blk1_2 V c t, blk1_3 V c t, blk1_4 V c t,
    blk1_5 V c t, blk1_6 V c t]

/-- An index of the result array is in tile `t`'s block iff each coordinate is in the block's range on its axis. -/
theorem mem_blk1 (t : Fin cfg1.N) (i : S100000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v31).slice (win1_7.rect t)).set ↔ _
  rw [View.set_slice_whole, Rect.mem_set_unit]
  exact Iff.rfl

/-- Every row is in exactly the tile its number divided by 2000 names: the tiles cover the array. -/
theorem cover1 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  have ht : (i 0).val / 2000 < cfg1.N := by rw [hN]; omega
  refine ⟨⟨(i 0).val / 2000, ht⟩, flush1_7 _, ?_⟩
  rw [mem_blk1]
  obtain ⟨-, -, -, -, -, -, -, -, -, -, -, -, -, -, e70, e71⟩ := idx_facts1 ⟨(i 0).val / 2000, ht⟩
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    omega

/-- The result array after the call is `G1` of the arrays as the call finds them. -/
theorem final1 (c : Dev nD) :
    (dat1 V c).arrAt 7 cfg1.N
      = G1 (V c main_v21_0) (V c main_v23) (V c main_v27) (V c main_v28) (V c main_v29) (V c main_arg8) (V c main_v30) :=
  (dat1 V c).arrAt_eq_of_cover 7 _ (fun t _ => flushed1_eq V c t) cover1

end Region

end Cert.KernelIdeal.KVal

end
-- ==== Proof.KReg0.lean ====
/-
  The first pallas_call's three result arrays as functions of the arrays it reads.

  At row tile t the body computes the 2000 × 128 block  h = out_block · W1 + b1  and stores it; it then adds the
  block's column sums to one 1 × 128 accumulator and the column sums of its squares to another. The two accumulators
  are zeroed at the first tile and written back after the last, so what they end holding is the zero word plus, tile
  after tile, the sum over the tile's rows — the column sums of h and of h² over all 100000 rows, grouped by tile.
-/
import proofs.«102576_j28432683499905_1_alg».proof.Proof.Gen.KernelIdeal.Frame
import proofs.«102576_j28432683499905_1_alg».proof.Proof.KReg1
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

set_option maxRecDepth 16384

noncomputable section

namespace Cert.KernelIdeal.KVal

open Idealize.ShloMosaic Idealize.ShloMosaic.TcCoe Idealize.ShloMosaic.Tactic Idealize.ShloMosaic.ValueIdx Idealize.SL.Sem
open Idealize.ShloMosaic.Pipeline (Dat Cfg Window)
open Cert.KernelIdeal Cert.KernelIdeal.Gen

/-! ## What each control case leaves in the three output buffers -/

section Pieces
variable {F : FTy → Type} [FloatOps F]

theorem zero_off0 : (![0, 0] : Fin 2 → Nat) = fun _ => 0 := funext fun a => by fin_cases a <;> rfl

/-- At the first tile the block buffer ends at the first layer's value of the loaded blocks. -/
theorem outA3 (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : cond0_0 i)
    (x0 : Vec F S2000x64 .f32) (x1 : Vec F S64x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero zero_off0]
  simp only [View.readAt_eq_ld, h1.read_unread, h2.read_unread, h3.read_unread, h5.read_unread, h6.read_unread,
    View.ld_unit_zero (S := S2000x64) zero_off0, View.ld_unit_zero (S := S64x128) zero_off0, View.ld_unit_zero (S := S1x128) zero_off0]

/-- At the first tile the sum accumulator is zeroed and then holds zero plus the block's column sums. -/
theorem outA4 (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : cond0_0 i)
    (x0 : Vec F S2000x64 .f32) (x1 : Vec F S64x128 .f32) (x2 : Vec F S1x128 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) zero_off0, View.readCov_unit_zero (S := S1x128) _ zero_off0]
  simp only [View.readAt_eq_ld, h1.read_unread, h2.read_unread, h3.read_unread, h5.read_unread, h6.read_unread,
    View.ld_unit_zero (S := S2000x64) zero_off0, View.ld_unit_zero (S := S64x128) zero_off0, View.ld_unit_zero (S := S1x128) zero_off0]

/-- At the first tile the sum-of-squares accumulator is zeroed and then holds zero plus the squares' column sums. -/
theorem outA5 (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : cond0_0 i)
    (x0 : Vec F S2000x64 .f32) (x1 : Vec F S64x128 .f32) (x2 : Vec F S1x128 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) zero_off0, View.readCov_unit_zero (S := S1x128) _ zero_off0]
  simp only [View.readAt_eq_ld, h1.read_unread, h2.read_unread, h3.read_unread, h5.read_unread, h6.read_unread,
    View.ld_unit_zero (S := S2000x64) zero_off0, View.ld_unit_zero (S := S64x128) zero_off0, View.ld_unit_zero (S := S1x128) zero_off0]

/-- At a later tile the block buffer ends at the first layer's value of the loaded blocks. -/
theorem outB3 (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : ¬cond0_0 i)
    (x0 : Vec F S2000x64 .f32) (x1 : Vec F S64x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero zero_off0]
  simp only [View.readAt_eq_ld, h1.read_unread, h2.read_unread, h3.read_unread, h5.read_unread, h6.read_unread,
    View.ld_unit_zero (S := S2000x64) zero_off0, View.ld_unit_zero (S := S64x128) zero_off0, View.ld_unit_zero (S := S1x128) zero_off0]

/-- At a later tile the sum accumulator holds what it held plus the block's column sums. -/
theorem outB4 (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : ¬cond0_0 i)
    (x0 : Vec F S2000x64 .f32) (x1 : Vec F S64x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero zero_off0]
  simp only [View.readAt_eq_ld, h1.read_unread, h2.read_unread, h3.read_unread, h5.read_unread, h6.read_unread,
    View.ld_unit_zero (S := S2000x64) zero_off0, View.ld_unit_zero (S := S64x128) zero_off0, View.ld_unit_zero (S := S1x128) zero_off0]

/-- At a later tile the sum-of-squares accumulator holds what it held plus the squares' column sums. -/
theorem outB5 (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : ¬cond0_0 i)
    (x0 : Vec F S2000x64 .f32) (x1 : Vec F S64x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero zero_off0]
  simp only [View.readAt_eq_ld, h1.read_unread, h2.read_unread, h3.read_unread, h5.read_unread, h6.read_unread,
    View.ld_unit_zero (S := S2000x64) zero_off0, View.ld_unit_zero (S := S64x128) zero_off0, View.ld_unit_zero (S := S1x128) zero_off0]

end Pieces

/-! ## The body's arithmetic at an index -/

/-- One entry of the first linear layer: the contraction over the 64 input features plus the bias. -/
def lin1 (orow : Fin 64 → EReal) (W1 : Fin 64 → Fin 128 → EReal) (b1 : Fin 128 → EReal) (j : Fin 128) : EReal :=
  (∑ k : Fin 64, orow k * W1 k j) + b1 j

/-- The first matrix product's contraction index is its one coordinate: the sum over it is the sum over the 64
    input features of the left row's entry times the right column's. -/
theorem dot1_sum (lhs : S2000x64.Idx → EReal) (rhs : S64x128.Idx → EReal) (r : Fin 2000) (j : Fin 128) :
    (∑ k : dot_S2000x64_S64x128_S2000x128_1_0_0_1_n_n.contr.Idx,
        lhs (dot_S2000x64_S64x128_S2000x128_1_0_0_1_n_n.lhsIdx (ix2 r j) k) * rhs (dot_S2000x64_S64x128_S2000x128_1_0_0_1_n_n.rhsIdx (ix2 r j) k))
      = ∑ k : Fin 64, lhs (ix2 r k) * rhs (ix2 k j) := by
  rw [← Equiv.sum_comp (contrEquiv1 dot_S2000x64_S64x128_S2000x128_1_0_0_1_n_n 64 rfl rfl).symm]
  refine Finset.sum_congr rfl fun k _ => ?_
  have e1 : dot_S2000x64_S64x128_S2000x128_1_0_0_1_n_n.lhsIdx (ix2 r j) ((contrEquiv1 dot_S2000x64_S64x128_S2000x128_1_0_0_1_n_n 64 rfl rfl).symm k) = ix2 r k := by
    funext a; apply Fin.ext
    match a with
    | ⟨0, _⟩ => rfl
    | ⟨1, _⟩ => exact (DotDims.lhsIdx_val_of_single _ rfl _ _).trans (contrEquiv1_symm_val _ 64 rfl rfl k)
  have e2 : dot_S2000x64_S64x128_S2000x128_1_0_0_1_n_n.rhsIdx (ix2 r j) ((contrEquiv1 dot_S2000x64_S64x128_S2000x128_1_0_0_1_n_n 64 rfl rfl).symm k) = ix2 k j := by
    funext a; apply Fin.ext
    match a with
    | ⟨0, _⟩ => exact (DotDims.rhsIdx_val_of_single _ rfl _ _).trans (contrEquiv1_symm_val _ 64 rfl rfl k)
    | ⟨1, _⟩ => rfl
  rw [e1, e2]

/-- The stored block at row `r`, column `j`: the first layer's entry of the loaded block's row. -/
theorem pay3_apply (x0 : Vec Ideal S2000x64 .f32) (x1 : Vec Ideal S64x128 .f32) (x2 : Vec Ideal S1x128 .f32)
    (r : Fin 2000) (j : Fin 128) :
    k0_pay3 (F := Ideal) x0 x1 x2 (ix2 r j)
      = lin1 (fun k => x0 (ix2 r k)) (fun k j' => x1 (ix2 k j')) (fun j' => x2 (ix2 (0 : Fin 1) j')) j := by
  unfold k0_pay3 lin1
  refine congrArg₂ (· + ·) ?_ (row_bcast x2 r j)
  refine (Ideal.matmul_constant_zero_apply _ none _ _ (ix2 r j)).trans ?_
  refine (dot1_sum _ _ r j).trans ?_
  refine Finset.sum_congr rfl fun k _ => ?_
  exact congrArg₂ (· * ·) (congrFun (shapeCast_self x0 _) (ix2 r k)) rfl

/-- The sum of a 2000 × 128 block over its rows, read at a column. -/
theorem colsum_apply (v : FVec Ideal S2000x128 .f32) (j : Fin 128) :
    multiReduction .add [0] S128 v 0x00000000#32 Facts₀.reduces_S2000x128_S128 (.inl rfl) rfl (ix1 j)
      = ∑ r : Fin 2000, v (ix2 r j) := by
  refine (Ideal.multiReduction_add_single v 0x00000000#32 Facts₀.reduces_S2000x128_S128 (.inl rfl) rfl (ix1 j)).trans ?_
  refine Finset.sum_congr rfl fun r _ => congrArg v ?_
  funext a
  apply Fin.ext
  match a with
  | ⟨0, _⟩ => rfl
  | ⟨1, _⟩ => rfl

/-- The sum accumulator after the body: what it held plus the stored block's column sums. -/
theorem pay4_apply (x0 : Vec Ideal S2000x64 .f32) (x1 : Vec Ideal S64x128 .f32) (x2 acc : Vec Ideal S1x128 .f32) (j : Fin 128) :
    k0_pay4 (F := Ideal) x0 x1 x2 acc (ix2 (0 : Fin 1) j)
      = acc (ix2 (0 : Fin 1) j) + ∑ r : Fin 2000, k0_pay3 (F := Ideal) x0 x1 x2 (ix2 r j) := by
  unfold k0_pay4
  refine congrArg₂ (· + ·) (congrFun (shapeCast_self acc _) _) ?_
  refine (shapeCast_a_1a_apply _ _ (0 : Fin 1) j).trans ?_
  exact colsum_apply _ j

/-- The sum-of-squares accumulator after the body: what it held plus the column sums of the stored block's squares. -/
theorem pay5_apply (x0 : Vec Ideal S2000x64 .f32) (x1 : Vec Ideal S64x128 .f32) (x2 acc : Vec Ideal S1x128 .f32) (j : Fin 128) :
    k0_pay5 (F := Ideal) x0 x1 x2 acc (ix2 (0 : Fin 1) j)
      = acc (ix2 (0 : Fin 1) j)
        + ∑ r : Fin 2000, k0_pay3 (F := Ideal) x0 x1 x2 (ix2 r j) * k0_pay3 (F := Ideal) x0 x1 x2 (ix2 r j) := by
  unfold k0_pay5
  refine congrArg₂ (· + ·) (congrFun (shapeCast_self acc _) _) ?_
  refine (shapeCast_a_1a_apply _ _ (0 : Fin 1) j).trans ?_
  exact colsum_apply _ j

/-! ## The whole arrays -/

/-- The first layer's output as a function of the arrays the call reads. -/
def H0 (out : S100000x64.Idx → EReal) (W1 : S64x128.Idx → EReal) (b1r : S1x128.Idx → EReal) : S100000x128.Idx → EReal :=
  fun i => lin1 (fun k => out (ix2 (i 0 : Fin 100000) k)) (fun k j => W1 (ix2 k j)) (fun j => b1r (ix2 (0 : Fin 1) j)) (i 1 : Fin 128)

/-- The sum of a column function over the rows of tile `t` (a row past the array contributes nothing). -/
def tileSum (f : Fin 100000 → EReal) (t : ℕ) : EReal :=
  ∑ r : Fin 2000, if h : 2000 * t + r.val < 100000 then f ⟨2000 * t + r.val, h⟩ else 0

/-- What an accumulator holds after tile `n`: the zero word, then the tiles' sums added in tile order. -/
def accSum (f : Fin 100000 → EReal) (n : ℕ) : EReal :=
  Ideal.ofBits .f32 0x00000000#32 + ∑ t ∈ Finset.range (n + 1), tileSum f t

theorem accSum_zero (f : Fin 100000 → EReal) : accSum f 0 = Ideal.ofBits .f32 0x00000000#32 + tileSum f 0 := by
  unfold accSum; rw [Finset.sum_range_one]

theorem accSum_succ (f : Fin 100000 → EReal) (n : ℕ) : accSum f (n + 1) = accSum f n + tileSum f (n + 1) := by
  unfold accSum; rw [Finset.sum_range_succ, add_assoc]

/-- The column sums of the first layer's output, tile by tile. -/
def S1of (H : S100000x128.Idx → EReal) : S1x128.Idx → EReal :=
  fun i => accSum (fun p => H (ix2 p (i 1 : Fin 128))) 49

/-- The column sums of the squares of the first layer's output, tile by tile. -/
def S2of (H : S100000x128.Idx → EReal) : S1x128.Idx → EReal :=
  fun i => accSum (fun p => H (ix2 p (i 1 : Fin 128)) * H (ix2 p (i 1 : Fin 128))) 49

/-! ## From the tiles to the arrays -/

section Region
-- the contents of every buffer when the call is entered
variable (V : (c : Dev nD) → (b : Ref sig .tc) → Buf (Elt Ideal) ((c : Thread nD τ).loc b))

/-- The index maps over the fifty row tiles: the aggregated features' block and the stored block are tile `t`'s
    rows; the weights, the bias and the two accumulators are their one whole block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of tile `t`'s block of the aggregated features is row `2000·t + r` of the array. -/
theorem blk0_0 (c : Dev nD) (t : Fin cfg0.N) (r : Fin 2000) (p : Fin 100000) (hp : p.val = 2000 * t.val + r.val) (k : Fin 64) :
    iblk0 V c 0 t (ix2 r k) = V c main_v19 (ix2 p k) := by
  show V c main_v19 (((cfg0.win 0).blk t).view.emb (ix2 r k)) = _
  refine congrArg (V c main_v19) (funext fun a => Fin.ext ?_)
  obtain ⟨e0, e1, -⟩ := idx_facts0 t
  match a with
  | ⟨0, _⟩ => show win0_0.index t (0 : Fin 2) * 2000 + 1 * r.val = p.val; omega
  | ⟨1, _⟩ => show win0_0.index t (1 : Fin 2) * 64 + 1 * k.val = k.val; omega

/-- The first weight matrix's block is the matrix. -/
theorem blk0_1 (c : Dev nD) (t : Fin cfg0.N) (k : Fin 64) (j : Fin 128) :
    iblk0 V c 1 t (ix2 k j) = V c main_arg4 (ix2 k j) := by
  show V c main_arg4 (((cfg0.win 1).blk t).view.emb (ix2 k j)) = _
  refine congrArg (V c main_arg4) (funext fun a => Fin.ext ?_)
  obtain ⟨-, -, e0, e1, -⟩ := idx_facts0 t
  match a with
  | ⟨0, _⟩ => show win0_1.index t (0 : Fin 2) * 64 + 1 * k.val = k.val; omega
  | ⟨1, _⟩ => show win0_1.index t (1 : Fin 2) * 128 + 1 * j.val = j.val; omega

/-- The first bias row's block is the row. -/
theorem blk0_2 (c : Dev nD) (t : Fin cfg0.N) (j : Fin 128) :
    iblk0 V c 2 t (ix2 (0 : Fin 1) j) = V c main_v20 (ix2 (0 : Fin 1) j) := by
  show V c main_v20 (((cfg0.win 2).blk t).view.emb (ix2 (0 : Fin 1) j)) = _
  refine congrArg (V c main_v20) (funext fun a => Fin.ext ?_)
  obtain ⟨-, -, -, -, e0, e1, -⟩ := idx_facts0 t
  match a with
  | ⟨0, _⟩ => show win0_2.index t (0 : Fin 2) * 1 + 1 * (0 : Fin 1).val = (0 : Fin 1).val; omega
  | ⟨1, _⟩ => show win0_2.index t (1 : Fin 2) * 128 + 1 * j.val = j.val; omega

/-- The block tile `t` stores, at row `r`: row `2000·t + r` of the first layer's output. -/
theorem pay3_blk (c : Dev nD) (t : Fin cfg0.N) (r : Fin 2000) (p : Fin 100000) (hp : p.val = 2000 * t.val + r.val) (j : Fin 128) :
    k0_pay3 (F := Ideal) (iblk0 V c 0 t) (iblk0 V c 1 t) (iblk0 V c 2 t) (ix2 r j)
      = H0 (V c main_v19) (V c main_arg4) (V c main_v20) (ix2 p j) := by
  refine (pay3_apply (iblk0 V c 0 t) (iblk0 V c 1 t) (iblk0 V c 2 t) r j).trans ?_
  simp only [blk0_0 V c t r p hp, blk0_1 V c t, blk0_2 V c t]
  rfl

/-- The sum over tile `t`'s rows of a function of the stored block's entries is the tile sum of that function of
    the first layer's output. -/
theorem tile_eq (c : Dev nD) (t : Fin cfg0.N) (g : EReal → EReal) (j : Fin 128) :
    (∑ r : Fin 2000, g (k0_pay3 (F := Ideal) (iblk0 V c 0 t) (iblk0 V c 1 t) (iblk0 V c 2 t) (ix2 r j)))
      = tileSum (fun p => g (H0 (V c main_v19) (V c main_arg4) (V c main_v20) (ix2 p j))) t.val := by
  have hN : cfg0.N = 50 := N_0
  unfold tileSum
  refine Finset.sum_congr rfl fun r _ => ?_
  have hp : 2000 * t.val + r.val < 100000 := by have := t.isLt; have := r.isLt; omega
  rw [dif_pos hp]
  exact congrArg g (pay3_blk V c t r ⟨2000 * t.val + r.val, hp⟩ rfl j)

/-- THE ACCUMULATION: after tile `n` the two accumulators hold the zero word plus the tiles' column sums, of the
    first layer's output and of its squares, added in tile order — by induction on the tile. -/
theorem acc_inv (c : Dev nD) : ∀ (n : ℕ) (hn : n < cfg0.N) (j : Fin 128),
    (outsAt0 V c n hn).2.1 (ix2 (0 : Fin 1) j)
        = accSum (fun p => H0 (V c main_v19) (V c main_arg4) (V c main_v20) (ix2 p j)) n
    ∧ (outsAt0 V c n hn).2.2 (ix2 (0 : Fin 1) j)
        = accSum (fun p => H0 (V c main_v19) (V c main_arg4) (V c main_v20) (ix2 p j)
            * H0 (V c main_v19) (V c main_arg4) (V c main_v20) (ix2 p j)) n
  | 0, hn, j => by
    rw [outsAt0_A V c ⟨0, hn⟩ rfl]
    dsimp only
    rw [outA4, outA5, accSum_zero, accSum_zero]
    refine ⟨(pay4_apply _ _ _ _ j).trans (congrArg₂ (· + ·) rfl ?_), (pay5_apply _ _ _ _ j).trans (congrArg₂ (· + ·) rfl ?_)⟩
    · exact tile_eq V c ⟨0, hn⟩ id j
    · exact tile_eq V c ⟨0, hn⟩ (fun x => x * x) j
  | n + 1, hn, j => by
    have hN : cfg0.N = 50 := N_0
    have hB : ¬(⟨n + 1, hn⟩ : Fin cfg0.N).val % 50 = 0 := by dsimp only; omega
    obtain ⟨i1, i2⟩ := acc_inv c n (Nat.lt_of_succ_lt hn) j
    rw [outsAt0_B V c ⟨n + 1, hn⟩ hB]
    dsimp only
    rw [outB4, outB5, accSum_succ, accSum_succ]
    refine ⟨(pay4_apply _ _ _ _ j).trans (congrArg₂ (· + ·) ?_ ?_), (pay5_apply _ _ _ _ j).trans (congrArg₂ (· + ·) ?_ ?_)⟩
    · exact i1
    · exact tile_eq V c ⟨n + 1, hn⟩ id j
    · exact i2
    · exact tile_eq V c ⟨n + 1, hn⟩ (fun x => x * x) j

/-! ### The stored blocks -/

/-- What tile `t` writes back of the first layer's output is tile `t`'s rows of `H0`. -/
theorem flushed0_3 (c : Dev nD) (t : Fin cfg0.N) :
    (dat0 V c).flushed 3 t = ((cfg0.win 3).blk t).view.read (Elt Ideal) (H0 (V c main_v19) (V c main_arg4) (V c main_v20)) := by
  show (cfg0.win 3).cut (grid0.coords t) ((dat0 V c).after 3 t) = _
  rw [after0_3]
  have h3 : (outsAt0 V c t.val t.isLt).1 = k0_pay3 (F := Ideal) (iblk0 V c 0 t) (iblk0 V c 1 t) (iblk0 V c 2 t) := by
    by_cases h0 : t.val % 50 = 0
    · rw [outsAt0_A V c t h0]; dsimp only; rw [outA3]
    · rw [outsAt0_B V c t h0]; dsimp only; rw [outB3]
  rw [h3]
  funext y
  obtain ⟨r, j, rfl⟩ : ∃ (r : Fin 2000) (j : Fin 128), y = ix2 r j := ⟨y 0, y 1, eq_ix2 y⟩
  have hN : cfg0.N = 50 := N_0
  have hp : 2000 * t.val + r.val < 100000 := by have := t.isLt; have := r.isLt; omega
  obtain ⟨-, -, -, -, -, -, e30, e31, -⟩ := idx_facts0 t
  refine (pay3_blk V c t r ⟨2000 * t.val + r.val, hp⟩ rfl j).trans ?_
  refine congrArg (H0 (V c main_v19) (V c main_arg4) (V c main_v20)) (funext fun a => Fin.ext ?_)
  match a with
  | ⟨0, _⟩ => show 2000 * t.val + r.val = win0_3.index t (0 : Fin 2) * 2000 + 1 * r.val; omega
  | ⟨1, _⟩ => show j.val = win0_3.index t (1 : Fin 2) * 128 + 1 * j.val; omega

/-- An index of the first layer's output is in tile `t`'s block iff each coordinate is in the block's range. -/
theorem mem_blk0_3 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v21_0).slice (win0_3.rect t)).set ↔ _
  rw [View.set_slice_whole, Rect.mem_set_unit]
  exact Iff.rfl

/-- Every row is in the tile its number divided by 2000 names. -/
theorem cover0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_3 _, ?_⟩
  rw [mem_blk0_3]
  obtain ⟨-, -, -, -, -, -, e30, e31, -⟩ := idx_facts0 ⟨(i 0).val / 2000, ht⟩
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    omega

/-- The first layer's output array after the call is `H0` of the arrays as the call finds them. -/
theorem final0_3 (c : Dev nD) :
    (dat0 V c).arrAt 3 cfg0.N = H0 (V c main_v19) (V c main_arg4) (V c main_v20) :=
  (dat0 V c).arrAt_eq_of_cover 3 _ (fun t _ => flushed0_3 V c t) cover0_3

/-! ### The two accumulators -/

/-- The last tile. -/
theorem t49_lt : 49 < cfg0.N := by rw [show cfg0.N = 50 from N_0]; decide

/-- The sum accumulator is written back once, after the last tile, holding the column sums. -/
theorem flushed0_4 (c : Dev nD) (t : Fin cfg0.N) (hf : (cfg0.win 4).flush t = true) :
    (dat0 V c).flushed 4 t = ((cfg0.win 4).blk t).view.read (Elt Ideal) (S1of (H0 (V c main_v19) (V c main_arg4) (V c main_v20))) := by
  have hN : cfg0.N = 50 := N_0
  have h49 : t.val = 49 := by have := (flush0_4 t).mp hf; have := t.isLt; omega
  show (cfg0.win 4).cut (grid0.coords t) ((dat0 V c).after 4 t) = _
  rw [after0_4]
  funext y
  obtain ⟨u, j, rfl⟩ : ∃ (u : Fin 1) (j : Fin 128), y = ix2 u j := ⟨y 0, y 1, eq_ix2 y⟩
  obtain rfl : u = 0 := Subsingleton.elim _ _
  obtain ⟨-, -, -, -, -, -, -, -, e40, e41, -⟩ := idx_facts0 t
  refine ((acc_inv V c t.val t.isLt j).1).trans ?_
  show _ = accSum (fun p => H0 (V c main_v19) (V c main_arg4) (V c main_v20)
    (ix2 p ((((cfg0.win 4).blk t).view.emb (ix2 (0 : Fin 1) j)) 1 : Fin 128))) 49
  have e1 : ((((cfg0.win 4).blk t).view.emb (ix2 (0 : Fin 1) j)) 1 : Fin 128) = j :=
    Fin.ext (by show win0_4.index t (1 : Fin 2) * 128 + 1 * j.val = j.val; omega)
  rw [e1, h49]

/-- The sum-of-squares accumulator likewise. -/
theorem flushed0_5 (c : Dev nD) (t : Fin cfg0.N) (hf : (cfg0.win 5).flush t = true) :
    (dat0 V c).flushed 5 t = ((cfg0.win 5).blk t).view.read (Elt Ideal) (S2of (H0 (V c main_v19) (V c main_arg4) (V c main_v20))) := by
  have hN : cfg0.N = 50 := N_0
  have h49 : t.val = 49 := by have := (flush0_5 t).mp hf; have := t.isLt; omega
  show (cfg0.win 5).cut (grid0.coords t) ((dat0 V c).after 5 t) = _
  rw [after0_5]
  funext y
  obtain ⟨u, j, rfl⟩ : ∃ (u : Fin 1) (j : Fin 128), y = ix2 u j := ⟨y 0, y 1, eq_ix2 y⟩
  obtain rfl : u = 0 := Subsingleton.elim _ _
  obtain ⟨-, -, -, -, -, -, -, -, -, -, e50, e51⟩ := idx_facts0 t
  refine ((acc_inv V c t.val t.isLt j).2).trans ?_
  show _ = accSum (fun p => H0 (V c main_v19) (V c main_arg4) (V c main_v20)
      (ix2 p ((((cfg0.win 5).blk t).view.emb (ix2 (0 : Fin 1) j)) 1 : Fin 128))
    * H0 (V c main_v19) (V c main_arg4) (V c main_v20)
      (ix2 p ((((cfg0.win 5).blk t).view.emb (ix2 (0 : Fin 1) j)) 1 : Fin 128))) 49
  have e1 : ((((cfg0.win 5).blk t).view.emb (ix2 (0 : Fin 1) j)) 1 : Fin 128) = j :=
    Fin.ext (by show win0_5.index t (1 : Fin 2) * 128 + 1 * j.val = j.val; omega)
  rw [e1, h49]

/-- The one block of a 1 × 128 accumulator is the whole array: the last tile's write-back covers it. -/
theorem cover0_4 (i : S1x128.Idx) :
    ∃ t : Fin cfg0.N, (cfg0.win 4).flush t = true ∧ i ∈ ((cfg0.win 4).blk t).view.set := by
  have hi0 : (i 0).val < 1 := (i 0).isLt
  have hi1 : (i 1).val < 128 := (i 1).isLt
  refine ⟨⟨49, t49_lt⟩, (flush0_4 _).mpr rfl, ?_⟩
  obtain ⟨-, -, -, -, -, -, -, -, e40, e41, -⟩ := idx_facts0 ⟨49, t49_lt⟩
  show i ∈ ((View.whole main_v21_1).slice (win0_4.rect ⟨49, t49_lt⟩)).set
  rw [View.set_slice_whole, Rect.mem_set_unit]
  intro a
  match a with
  | ⟨0, _⟩ =>
    show win0_4.index ⟨49, t49_lt⟩ (0 : Fin 2) * 1 ≤ (i 0).val ∧ (i 0).val < win0_4.index ⟨49, t49_lt⟩ (0 : Fin 2) * 1 + 1
    omega
  | ⟨1, _⟩ =>
    show win0_4.index ⟨49, t49_lt⟩ (1 : Fin 2) * 128 ≤ (i 1).val ∧ (i 1).val < win0_4.index ⟨49, t49_lt⟩ (1 : Fin 2) * 128 + 128
    omega

theorem cover0_5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  refine ⟨⟨49, t49_lt⟩, (flush0_5 _).mpr rfl, ?_⟩
  obtain ⟨-, -, -, -, -, -, -, -, -, -, e50, e51⟩ := idx_facts0 ⟨49, t49_lt⟩
  show i ∈ ((View.whole main_v21_2).slice (win0_5.rect ⟨49, t49_lt⟩)).set
  rw [View.set_slice_whole, Rect.mem_set_unit]
  intro a
  match a with
  | ⟨0, _⟩ =>
    show win0_5.index ⟨49, t49_lt⟩ (0 : Fin 2) * 1 ≤ (i 0).val ∧ (i 0).val < win0_5.index ⟨49, t49_lt⟩ (0 : Fin 2) * 1 + 1
    omega
  | ⟨1, _⟩ =>
    show win0_5.index ⟨49, t49_lt⟩ (1 : Fin 2) * 128 ≤ (i 1).val ∧ (i 1).val < win0_5.index ⟨49, t49_lt⟩ (1 : Fin 2) * 128 + 128
    omega

/-- The column-sum array after the call. -/
theorem final0_4 (c : Dev nD) :
    (dat0 V c).arrAt 4 cfg0.N = S1of (H0 (V c main_v19) (V c main_arg4) (V c main_v20)) :=
  (dat0 V c).arrAt_eq_of_cover 4 _ (flushed0_4 V c) cover0_4

/-- The column-sum-of-squares array after the call. -/
theorem final0_5 (c : Dev nD) :
    (dat0 V c).arrAt 5 cfg0.N = S2of (H0 (V c main_v19) (V c main_arg4) (V c main_v20)) :=
  (dat0 V c).arrAt_eq_of_cover 5 _ (flushed0_5 V c) cover0_5

end Region

end Cert.KernelIdeal.KVal

end
-- ==== Proof.KHost.lean ====
/-
  The host operations around the two pallas_calls, read as values.

  Before the first call the host builds the aggregated node features
      out = scatter_add(0, dst, x[src] · w) + 1 · x
  (the source indices shifted by N where negative, as jnp's indexing does) and lays the first bias out as a row.
  Between the calls it turns the two column sums into the batch statistics,
      mean = Σh / 100000 ,   var = Σh² / 100000 − mean · mean ,
  and lays the scale, the shift and the second bias out as rows. Each buffer's contents after a stretch is the
  composition of the operations that wrote it, applied to the contents before the stretch.
-/
import proofs.«102576_j28432683499905_1_alg».proof.Proof.Gen.KernelIdeal.Launch
import Idealize.ShloMosaic.Lib.StableHlo.Run

set_option maxRecDepth 16384

noncomputable section

namespace Cert.KernelIdeal.KVal

open Idealize.ShloMosaic Idealize.ShloMosaic.TcCoe Idealize.ShloMosaic.StableHlo Idealize.SL.Sem
open Cert.KernelIdeal Cert.KernelIdeal.Facts₀

variable {F : FTy → Type} [FloatOps F]

/-! ## The aggregated node features -/

/-- Row 0 of the edge list: the source node of each edge. -/
def srcK (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of each edge. -/
def dstK (ei : IVec S2x1600000 32) : IVec S1600000 32 :=
  shapeCast S1600000 (extractStridedSlice S1x1600000 ![1, 0] ei slices_S2x1600000_S1x1600000_1_0) shapeCasts_S1x1600000_S1600000

/-- The source indices as the gather reads them: a negative index counts from the end (`+ 100000`). -/
def srcIdxK (ei : IVec S2x1600000 32) : IVec S1600000 32 :=
  select (cmpi .slt (srcK ei) (broadcastInDim S1600000 ![] bcast_S_S1600000 (constantI S_ 32 0#32)))
    (addi (srcK ei) (broadcastInDim S1600000 ![] bcast_S_S1600000 (constantI S_ 32 100000#32))) (srcK ei)

/-- The message of each edge: its source node's features times the edge's weight. -/
def msgK (x : FVec F S100000x64 .f32) (ei : IVec S2x1600000 32) (w : FVec F S1600000 .f32) : FVec F S1600000x64 .f32 :=
  mulf (Host.gather gather_S100000x64_S1600000x1_S1600000x64_1_0_n_n_0_1_164 x
      (broadcastInDim S1600000x1 ![0] bcast_S1600000_S1600000x1_0 (srcIdxK ei)))
    (broadcastInDim S1600000x64 ![0, 1] bcast_S1600000x1_S1600000x64_0_1
      (broadcastInDim S1600000x1 ![0] bcast_S1600000_S1600000x1_0 w))

/-- The aggregated features: the messages summed at their destination nodes, plus the node's own features. -/
def outK (x : FVec F S100000x64 .f32) (ei : IVec S2x1600000 32) (w : FVec F S1600000 .f32) : FVec F S100000x64 .f32 :=
  addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstK ei)) (msgK x ei w))
    (mulf (broadcastInDim S100000x64 ![] bcast_S_S100000x64 (constant S_ .f32 0x3F800000#32)) x)

/-! ## The batch statistics from the two column sums -/

/-- The mean row: the column sums divided by the number of rows. -/
def meanK (s1 : FVec F S1x128 .f32) : FVec F S1x128 .f32 :=
  Host.divf s1 (broadcastInDim S1x128 ![] bcast_S_S1x128 (constant S_ .f32 0x47C35000#32))

/-- The variance row: the mean of the squares minus the square of the mean. -/
def varK (s1 s2 : FVec F S1x128 .f32) : FVec F S1x128 .f32 :=
  subf (Host.divf s2 (broadcastInDim S1x128 ![] bcast_S_S1x128 (constant S_ .f32 0x47C35000#32))) (mulf (meanK s1) (meanK s1))

/-- A 128-vector laid out as a 1 × 128 row. -/
def rowK (v : FVec F S128 .f32) : FVec F S1x128 .f32 := shapeCast S1x128 v shapeCasts_S128_S1x128

section Reads
variable (W : Valuation τ sig (Elt F))

/-! ## The stretch before the first call -/

attribute [local irreducible] Host.gather Host.scatterAdd in
set_option maxHeartbeats 1000000 in
theorem pre_out : after Gen.hostOps0 W (main_v19 : DevRef τ sig)
    = outK (W (main_arg0 : DevRef τ sig)) (W (main_arg1 : DevRef τ sig)) (W (main_arg3 : DevRef τ sig)) := by
  after_results_simp
  rfl

theorem pre_b1 : after Gen.hostOps0 W (main_v20 : DevRef τ sig) = rowK (W (main_arg5 : DevRef τ sig)) := by
  after_results
  rfl

theorem pre_W1 : after Gen.hostOps0 W (main_arg4 : DevRef τ sig) = W (main_arg4 : DevRef τ sig) := by
  after_results

/-- The scale, the shift, the second weight matrix and the second bias are not written before the first call. -/
theorem pre_gamma : after Gen.hostOps0 W (main_arg6 : DevRef τ sig) = W (main_arg6 : DevRef τ sig) := by
  after_results

theorem pre_beta : after Gen.hostOps0 W (main_arg7 : DevRef τ sig) = W (main_arg7 : DevRef τ sig) := by
  after_results

theorem pre_W2 : after Gen.hostOps0 W (main_arg8 : DevRef τ sig) = W (main_arg8 : DevRef τ sig) := by
  after_results

theorem pre_b2 : after Gen.hostOps0 W (main_arg9 : DevRef τ sig) = W (main_arg9 : DevRef τ sig) := by
  after_results

/-! ## The stretch between the calls -/

theorem mid_h : after Gen.hostOps1 W (main_v21_0 : DevRef τ sig) = W (main_v21_0 : DevRef τ sig) := by
  after_results

theorem mid_mean : after Gen.hostOps1 W (main_v23 : DevRef τ sig) = meanK (W (main_v21_1 : DevRef τ sig)) := by
  after_results
  rfl

theorem mid_var : after Gen.hostOps1 W (main_v27 : DevRef τ sig)
    = varK (W (main_v21_1 : DevRef τ sig)) (W (main_v21_2 : DevRef τ sig)) := by
  after_results
  rfl

theorem mid_gamma : after Gen.hostOps1 W (main_v28 : DevRef τ sig) = rowK (W (main_arg6 : DevRef τ sig)) := by
  after_results
  rfl

theorem mid_beta : after Gen.hostOps1 W (main_v29 : DevRef τ sig) = rowK (W (main_arg7 : DevRef τ sig)) := by
  after_results
  rfl

theorem mid_W2 : after Gen.hostOps1 W (main_arg8 : DevRef τ sig) = W (main_arg8 : DevRef τ sig) := by
  after_results

theorem mid_b2 : after Gen.hostOps1 W (main_v30 : DevRef τ sig) = rowK (W (main_arg9 : DevRef τ sig)) := by
  after_results
  rfl

end Reads

end Cert.KernelIdeal.KVal

end
-- ==== Proof.KFinal.lean ====
/-
  The idealized kernel program's result as ONE function of its argument arrays.

  The second call's result array is `G1` of the arrays it finds; those are, through the host operations between
  the calls, the first call's three result arrays (the first layer's output `H0`, and the column sums `S1of`,
  `S2of` turned into the mean and the variance) and the scale, shift and bias laid out as rows; and the first
  call's arrays are `H0` of the aggregated features, the first weights and the first bias row. Composing the
  boundaries gives the result as `kernelResult` of the arguments.
-/
import proofs.«102576_j28432683499905_1_alg».proof.Proof.KernelRun
import proofs.«102576_j28432683499905_1_alg».proof.Proof.KReg0
import proofs.«102576_j28432683499905_1_alg».proof.Proof.KHost

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The first layer's output of the aggregated features. -/
def hK (x : FVec Ideal S100000x64 .f32) (ei : IVec S2x1600000 32) (w : FVec Ideal S1600000 .f32)
    (W1 : FVec Ideal S64x128 .f32) (b1 : FVec Ideal S128 .f32) : S100000x128.Idx → EReal :=
  H0 (outK (F := Ideal) x ei w) W1 (rowK (F := Ideal) b1)

/-- The kernel program's result: the second call's function of the first layer's output, of the mean and the
    variance computed from its tile-by-tile column sums, and of the remaining parameters. -/
def kernelResult (x : FVec Ideal S100000x64 .f32) (ei : IVec S2x1600000 32) (w : FVec Ideal S1600000 .f32)
    (W1 : FVec Ideal S64x128 .f32) (b1 g b : FVec Ideal S128 .f32) (W2 : FVec Ideal S128x128 .f32)
    (b2 : FVec Ideal S128 .f32) : S100000x128.Idx → EReal :=
  G1 (hK x ei w W1 b1) (meanK (F := Ideal) (S1of (hK x ei w W1 b1)))
    (varK (F := Ideal) (S1of (hK x ei w W1 b1)) (S2of (hK x ei w W1 b1)))
    (rowK (F := Ideal) g) (rowK (F := Ideal) b) W2 (rowK (F := Ideal) b2)

variable (m : (ℓ : Loc nD τ sig) → Buf (Elt Ideal) ℓ) (ρ : Dev nD → PrngReg)

/-! ## The contents when the first call is entered -/

theorem V1_out (c : Dev nD) : V1 m ρ c main_v19
    = outK (F := Ideal) (m ((c.tc : Thread nD τ).loc main_arg0)) (m ((c.tc : Thread nD τ).loc main_arg1)) (m ((c.tc : Thread nD τ).loc main_arg3)) :=
  pre_out (W0 m ρ c)

theorem V1_W1 (c : Dev nD) : V1 m ρ c main_arg4 = m ((c.tc : Thread nD τ).loc main_arg4) := pre_W1 (W0 m ρ c)

theorem V1_b1 (c : Dev nD) : V1 m ρ c main_v20 = rowK (F := Ideal) (m ((c.tc : Thread nD τ).loc main_arg5)) := pre_b1 (W0 m ρ c)

/-! ## The contents when the first call is left -/

theorem V2_h (c : Dev nD) : V2 m ρ c main_v21_0
    = hK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 3).trans ((final0_3 (V1 m ρ) c).trans ?_)
  rw [V1_out m ρ c, V1_W1 m ρ c, V1_b1 m ρ c]
  rfl

theorem V2_s1 (c : Dev nD) : V2 m ρ c main_v21_1
    = S1of (hK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  refine (W2_arr m ρ c 4).trans ((final0_4 (V1 m ρ) c).trans ?_)
  rw [V1_out m ρ c, V1_W1 m ρ c, V1_b1 m ρ c]
  rfl

theorem V2_s2 (c : Dev nD) : V2 m ρ c main_v21_2
    = S2of (hK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  refine (W2_arr m ρ c 5).trans ((final0_5 (V1 m ρ) c).trans ?_)
  rw [V1_out m ρ c, V1_W1 m ρ c, V1_b1 m ρ c]
  rfl

theorem V2_gamma (c : Dev nD) : V2 m ρ c main_arg6 = m ((c.tc : Thread nD τ).loc main_arg6) :=
  (W2_of_ne m ρ c main_arg6 (by decide)).trans (pre_gamma (W0 m ρ c))

theorem V2_beta (c : Dev nD) : V2 m ρ c main_arg7 = m ((c.tc : Thread nD τ).loc main_arg7) :=
  (W2_of_ne m ρ c main_arg7 (by decide)).trans (pre_beta (W0 m ρ c))

theorem V2_W2 (c : Dev nD) : V2 m ρ c main_arg8 = m ((c.tc : Thread nD τ).loc main_arg8) :=
  (W2_of_ne m ρ c main_arg8 (by decide)).trans (pre_W2 (W0 m ρ c))

theorem V2_b2 (c : Dev nD) : V2 m ρ c main_arg9 = m ((c.tc : Thread nD τ).loc main_arg9) :=
  (W2_of_ne m ρ c main_arg9 (by decide)).trans (pre_b2 (W0 m ρ c))

/-! ## The result -/

/-- The second call's result array is `kernelResult` of the argument arrays. -/
theorem result_eq (c : Dev nD) : (dat1 (V3 m ρ) c).arrAt 7 cfg1.N
    = kernelResult (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  rw [final1 (V3 m ρ) c]
  have eh : V3 m ρ c main_v21_0 = V2 m ρ c main_v21_0 := mid_h (W2 m ρ c)
  have em : V3 m ρ c main_v23 = meanK (F := Ideal) (V2 m ρ c main_v21_1) := mid_mean (W2 m ρ c)
  have ev : V3 m ρ c main_v27 = varK (F := Ideal) (V2 m ρ c main_v21_1) (V2 m ρ c main_v21_2) := mid_var (W2 m ρ c)
  have eg : V3 m ρ c main_v28 = rowK (F := Ideal) (V2 m ρ c main_arg6) := mid_gamma (W2 m ρ c)
  have eb : V3 m ρ c main_v29 = rowK (F := Ideal) (V2 m ρ c main_arg7) := mid_beta (W2 m ρ c)
  have ew : V3 m ρ c main_arg8 = V2 m ρ c main_arg8 := mid_W2 (W2 m ρ c)
  have e2 : V3 m ρ c main_v30 = rowK (F := Ideal) (V2 m ρ c main_arg9) := mid_b2 (W2 m ρ c)
  rw [eh, em, ev, eg, eb, ew, e2, V2_h m ρ c, V2_s1 m ρ c, V2_s2 m ρ c, V2_gamma m ρ c, V2_beta m ρ c, V2_W2 m ρ c,
    V2_b2 m ρ c]
  rfl

/-- The kernel program's run: every weakly fair execution terminates without a fault, the result array holds
    `kernelResult` of the arguments, and no argument has changed. -/
theorem run : θ_run defs (onTc (τ := τ) (main (F := Ideal))) ⟨m, fun _ => 0, ρ⟩ (fun r => ∀ c : Dev nD,
      r.2.mem ((c.tc : Thread nD τ).loc main_v31) = kernelResult (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (KRun.run_result m ρ)

end Cert.KernelIdeal.KVal

end
-- ==== Proof.RefStages.lean ====
/-
  The reference's result as a function of its argument arrays, written stage by stage. The reference is a
  one-layer graph network block over 100000 nodes (64 features) and 1600000 weighted edges:

    out    = x + Σ_{e : dst e = i} w e · x[src e]            (gather, weight, scatter-add, plus the node itself)
    h      = out · W1 + b1
    mean   = (Σ_i h i) / 1e5 ,  var = (Σ_i (h i − mean)²) / (1e5 − ddof)  with ddof = 0 (NaN if 1e5 − ddof ≤ 0)
    hn     = (h − mean) · rsqrt (var + 1e-5) · γ + β
    result = max(hn, 0) · W2 + b2

  Each definition below applies the same pure functions, in the same order and with the same evidence, as the
  corresponding operations of the printed program; the argument array `edge_attr` is read by no operation.
-/
import proofs.«102576_j28432683499905_1_alg».proof.ReferenceIdeal
import proofs.«102576_j28432683499905_1_alg».proof.Proof.Gen.ReferenceIdeal

noncomputable section

namespace Cert.ReferenceIdeal.RefValue

open Idealize.ShloMosaic Idealize.SL.Sem
open Cert.ReferenceIdeal Cert.ReferenceIdeal.Facts₀

variable {F : FTy → Type} [FloatOps F]

/-- `edge_index[r]` for `r = 0` (sources) as a flat vector: the row sliced out, then reshaped to rank one. -/
def srcOf (ei : IVec S2x1600000 32) : IVec S1600000 32 :=
  shapeCast S1600000 (extractStridedSlice S1x1600000 ![0, 0] ei slices_S2x1600000_S1x1600000_0_0)
    shapeCasts_S1x1600000_S1600000

/-- `edge_index[1]` (destinations) as a flat vector. -/
def dstOf (ei : IVec S2x1600000 32) : IVec S1600000 32 :=
  shapeCast S1600000 (extractStridedSlice S1x1600000 ![1, 0] ei slices_S2x1600000_S1x1600000_1_0)
    shapeCasts_S1x1600000_S1600000

/-- The source indices as `x[src]` reads them: a negative index counts from the end (`src < 0 ? src + 100000 : src`). -/
def srcIdxOf (ei : IVec S2x1600000 32) : IVec S1600000 32 :=
  select (cmpi .slt (srcOf ei) (broadcastInDim S1600000 ![] bcast_S_S1600000 (constantI S_ 32 0#32)))
    (addi (srcOf ei) (broadcastInDim S1600000 ![] bcast_S_S1600000 (constantI S_ 32 100000#32)))
    (srcOf ei)

/-- `x[src] * edge_weight[:, None]`: one weighted row of `x` per edge. -/
def msgOf (x : FVec F S100000x64 .f32) (ei : IVec S2x1600000 32) (w : FVec F S1600000 .f32) : FVec F S1600000x64 .f32 :=
  mulf
    (Host.gather gather_S100000x64_S1600000x1_S1600000x64_1_0_n_n_0_1_164 x
      (broadcastInDim S1600000x1 ![0] bcast_S1600000_S1600000x1_0 (srcIdxOf ei)))
    (broadcastInDim S1600000x64 ![0, 1] bcast_S1600000x1_S1600000x64_0_1
      (broadcastInDim S1600000x1 ![0] bcast_S1600000_S1600000x1_0 w))

/-- `zeros.at[dst].add(x[src] * w[:, None]) + 1.0 * x`: the weighted messages summed at their destinations, plus
    the node's own features. -/
def outOf (x : FVec F S100000x64 .f32) (ei : IVec S2x1600000 32) (w : FVec F S1600000 .f32) : FVec F S100000x64 .f32 :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstOf ei))
      (msgOf x ei w))
    (mulf (broadcastInDim S100000x64 ![] bcast_S_S100000x64 (constant S_ .f32 0x3F800000#32)) x)

/-- `out @ W1 + b1`. -/
def hOf (out : FVec F S100000x64 .f32) (W1 : FVec F S64x128 .f32) (b1 : FVec F S128 .f32) : FVec F S100000x128 .f32 :=
  addf (Host.dotGeneral dot_S100000x64_S64x128_S100000x128_1_0_0_1_n_n none out W1)
    (broadcastInDim S100000x128 ![0, 1] bcast_S1x128_S100000x128_0_1
      (broadcastInDim S1x128 ![1] bcast_S128_S1x128_1 b1))

/-- `h.mean(axis = 0)`: the column sums from zero, divided by the row count `1e5`. -/
def meanOf (h : FVec F S100000x128 .f32) : FVec F S128 .f32 :=
  Host.divf
    (Host.reduceAdd h (constant S_ .f32 0x00000000#32) reducesTo_S100000x128_S128_d0 h_S_)
    (broadcastInDim S128 ![] bcast_S_S128 (constant S_ .f32 0x47C35000#32))

/-- The column means as `h.var` computes them itself (`keepdims` form): the sums broadcast to one row, then divided. -/
def varMeanOf (h : FVec F S100000x128 .f32) : FVec F S1x128 .f32 :=
  Host.divf
    (broadcastInDim S1x128 ![1] bcast_S128_S1x128_1
      (Host.reduceAdd h (constant S_ .f32 0x00000000#32) reducesTo_S100000x128_S128_d0 h_S_))
    (broadcastInDim S1x128 ![] bcast_S_S1x128 (constant S_ .f32 0x47C35000#32))

/-- `h - mean` inside `h.var`. -/
def varCenteredOf (h : FVec F S100000x128 .f32) : FVec F S100000x128 .f32 :=
  subf h (broadcastInDim S100000x128 ![0, 1] bcast_S1x128_S100000x128_0_1 (varMeanOf h))

/-- The divisor of `h.var`: `1e5 - float(ddof)`, `ddof` the integer constant `0`. -/
def varDenomOf : FVec F S_ .f32 :=
  subf (constant S_ .f32 0x47C35000#32) (sitofp .f32 (constantI S_ 32 0#32))

/-- `h.var(axis = 0)`: the column sums of the squared deviations over `1e5 - ddof` where that is positive, NaN
    otherwise (the `where` with its scalar branch converted to its own type and broadcast). -/
def varOf (h : FVec F S100000x128 .f32) : FVec F S128 .f32 :=
  select
    (broadcastInDim S128 ![] bcast_S_S128 (cmpf .ogt (varDenomOf (F := F)) (constant S_ .f32 0x00000000#32)))
    (Host.divf
      (Host.reduceAdd (mulf (varCenteredOf h) (varCenteredOf h)) (constant S_ .f32 0x00000000#32)
        reducesTo_S100000x128_S128_d0 h_S_)
      (broadcastInDim S128 ![] bcast_S_S128 (varDenomOf (F := F))))
    (broadcastInDim S128 ![] bcast_S_S128 (id (constant S_ .f32 0x7FC00000#32)))

/-- `(h - mean) * rsqrt(var + 1e-5) * gamma + beta`, each row vector broadcast down the rows. -/
def normOf (h : FVec F S100000x128 .f32) (mean var gamma beta : FVec F S128 .f32) : FVec F S100000x128 .f32 :=
  addf
    (mulf
      (mulf
        (subf h (broadcastInDim S100000x128 ![0, 1] bcast_S1x128_S100000x128_0_1
          (broadcastInDim S1x128 ![1] bcast_S128_S1x128_1 mean)))
        (broadcastInDim S100000x128 ![0, 1] bcast_S1x128_S100000x128_0_1
          (broadcastInDim S1x128 ![1] bcast_S128_S1x128_1
            (Host.rsqrt (addf var (broadcastInDim S128 ![] bcast_S_S128 (constant S_ .f32 0x3727C5AC#32)))))))
      (broadcastInDim S100000x128 ![0, 1] bcast_S1x128_S100000x128_0_1
        (broadcastInDim S1x128 ![1] bcast_S128_S1x128_1 gamma)))
    (broadcastInDim S100000x128 ![0, 1] bcast_S1x128_S100000x128_0_1
      (broadcastInDim S1x128 ![1] bcast_S128_S1x128_1 beta))

/-- `relu(hn) @ W2 + b2`, `relu` the maximum with the broadcast zero. -/
def resultOf (hn : FVec F S100000x128 .f32) (W2 : FVec F S128x128 .f32) (b2 : FVec F S128 .f32) : FVec F S100000x128 .f32 :=
  addf
    (Host.dotGeneral dot_S100000x128_S128x128_S100000x128_1_0_0_1_n_n none
      (maximumf hn (broadcastInDim S100000x128 ![] bcast_S_S100000x128 (constant S_ .f32 0x00000000#32))) W2)
    (broadcastInDim S100000x128 ![0, 1] bcast_S1x128_S100000x128_0_1
      (broadcastInDim S1x128 ![1] bcast_S128_S1x128_1 b2))

/-- The reference's result of its argument arrays (`edge_attr` is not read). -/
def result (x : FVec F S100000x64 .f32) (ei : IVec S2x1600000 32) (w : FVec F S1600000 .f32)
    (W1 : FVec F S64x128 .f32) (b1 gamma beta : FVec F S128 .f32) (W2 : FVec F S128x128 .f32) (b2 : FVec F S128 .f32) :
    FVec F S100000x128 .f32 :=
  resultOf
    (normOf (hOf (outOf x ei w) W1 b1) (meanOf (hOf (outOf x ei w) W1 b1)) (varOf (hOf (outOf x ei w) W1 b1)) gamma beta)
    W2 b2

end Cert.ReferenceIdeal.RefValue

end
-- ==== Proof.RefRun.lean ====
/-
  The reference's run. Its entry function is a straight line of seventy-nine array operations once the three
  helper functions it calls (the variance, the `where` inside it, and the rectifier) are substituted at their call
  sites, each helper's values living in the buffers of that call. Listed in order, the line runs to its end from
  any memory, and every buffer then holds the operations' fold over the launch contents.
-/
import proofs.«102576_j28432683499905_1_alg».proof.Proof.RefStages
import Idealize.ShloMosaic.Lib.StableHlo.Run

noncomputable section

namespace Cert.ReferenceIdeal.RefValue

open Idealize.ShloMosaic Idealize.ShloMosaic.TcCoe Idealize.ShloMosaic.StableHlo Idealize.SL.Sem
open Cert.ReferenceIdeal Cert.ReferenceIdeal.Facts₀

variable {F : FTy → Type} [FloatOps F]

/-- The entry function's operations in order, the calls unfolded: thirty-four of its own up to the mean and the
    integer zero handed to the variance; the variance's nineteen (its own mean in one-row form, the centred
    squares, the divisor `1e5 - 0`, the quotient, the test `divisor > 0` and the NaN constant) and then the three
    of the `where` it calls (the constant at its own type, its broadcast, the select); sixteen for the
    normalisation; the rectifier's three (zero, its broadcast, the maximum); the last product, the bias's two
    broadcasts and the sum. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg3 main_v11 (broadcastInDim S1600000x1 ![0] bcast_S1600000_S1600000x1_0 : (⟨S1600000, .f32⟩ : BufTy).Contents (Elt F) → (⟨S1600000x1, .f32⟩ : BufTy).Contents (Elt F)),
    StableHlo.unary main_v11 main_v12 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v10 main_v12 main_v13 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v14 (broadcastInDim S100000x64 ![] bcast_S_S100000x64 : (⟨S_, .f32⟩ : BufTy).Contents (Elt F) → (⟨S100000x64, .f32⟩ : BufTy).Contents (Elt F)),
    StableHlo.unary main_v3 main_v15 (broadcastInDim S1600000x1 ![0] bcast_S1600000_S1600000x1_0 : (⟨S1600000, .i32⟩ : BufTy).Contents (Elt F) → (⟨S1600000x1, .i32⟩ : BufTy).Contents (Elt F)),
    StableHlo.ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v17 (broadcastInDim S100000x64 ![] bcast_S_S100000x64 : (⟨S_, .f32⟩ : BufTy).Contents (Elt F) → (⟨S100000x64, .f32⟩ : BufTy).Contents (Elt F)),
    StableHlo.binary main_v17 main_arg0 main_v18 (mulf : (⟨S100000x64, .f32⟩ : BufTy).Contents (Elt F) → (⟨S100000x64, .f32⟩ : BufTy).Contents (Elt F) → (⟨S100000x64, .f32⟩ : BufTy).Contents (Elt F)),
    StableHlo.binary main_v16 main_v18 main_v19 (addf : (⟨S100000x64, .f32⟩ : BufTy).Contents (Elt F) → (⟨S100000x64, .f32⟩ : BufTy).Contents (Elt F) → (⟨S100000x64, .f32⟩ : BufTy).Contents (Elt F)),
    StableHlo.binary main_v19 main_arg4 main_v20 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v23 main_cst_2 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v23 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v23 : StableHlo.TRef sig ⟨S100000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v26 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v29 main_v30 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v31 (broadcastInDim S128 ![] bcast_S_S128 : (⟨S_, .f32⟩ : BufTy).Contents (Elt F) → (⟨S128, .f32⟩ : BufTy).Contents (Elt F)),
    StableHlo.binary main_v27 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg6 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v42 : StableHlo.TRef sig ⟨S100000x128, .f32⟩) main_call1.v0 main_call1.v1 maximumf,
    StableHlo.binary main_v43 main_arg8 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The entry function is that straight line: with the helpers' definitions unfolded at their calls and the calls'
    buffer records at their fields, sequencing grafts each helper's steps into the caller's chain, and both sides
    are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- At the compiled mesh, for any float values, from any memory with zero counters: every weakly fair execution of
    the entry function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

end Cert.ReferenceIdeal.RefValue

end
-- ==== Proof.RefValue.lean ====
/-
  What the reference's run leaves in its result buffer: the fold of the seventy-nine operations, read at the result
  buffer, is the staged function `result` of the launch contents of the argument buffers, and each argument buffer
  is written by no operation. With the run itself this gives the reference's half of the certificate: it
  terminates, its result is `result` of its arguments, and its arguments end unchanged.
-/
import proofs.«102576_j28432683499905_1_alg».proof.Defs
import proofs.«102576_j28432683499905_1_alg».proof.Proof.Gen.Pre_finite_inputs
import proofs.«102576_j28432683499905_1_alg».proof.Proof.RefRun

noncomputable section

namespace Cert.ReferenceIdeal.RefValue

open Idealize.ShloMosaic Idealize.ShloMosaic.TcCoe Idealize.ShloMosaic.StableHlo Idealize.SL.Sem
open Cert.ReferenceIdeal Cert.ReferenceIdeal.Facts₀

variable {F : FTy → Type} [FloatOps F]

attribute [local irreducible] Host.gather Host.scatterAdd Host.reduceAdd Host.divf Host.rsqrt in
set_option maxRecDepth 16384 in
set_option maxHeartbeats 1600000 in
/-- The fold read at the result buffer is `result` of the argument buffers' contents, by computation: each
    operation's result decides whether the buffer read is the one it writes, and what is left is the same nest of
    pure functions on both sides. The gather, the scatter-add, the two products of matrices, the column sums, the
    quotients and the reciprocal square root stay folded: the equation never looks inside them. -/
theorem result_eq (V : Valuation τ sig (Elt F)) :
    after ops V (main_v47 : DevRef τ sig)
      = result (V (main_arg0 : DevRef τ sig)) (V (main_arg1 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig)) := by
  after_results_simp
  rfl

/-- No operation writes argument buffer 0. -/
theorem arg0_eq (V : Valuation τ sig (Elt F)) :
    after ops V (main_arg0 : DevRef τ sig) = V (main_arg0 : DevRef τ sig) := by
  after_results_simp

/-- No operation writes argument buffer 1. -/
theorem arg1_eq (V : Valuation τ sig (Elt F)) :
    after ops V (main_arg1 : DevRef τ sig) = V (main_arg1 : DevRef τ sig) := by
  after_results_simp

/-- No operation writes argument buffer 2. -/
theorem arg2_eq (V : Valuation τ sig (Elt F)) :
    after ops V (main_arg2 : DevRef τ sig) = V (main_arg2 : DevRef τ sig) := by
  after_results_simp

/-- No operation writes argument buffer 3. -/
theorem arg3_eq (V : Valuation τ sig (Elt F)) :
    after ops V (main_arg3 : DevRef τ sig) = V (main_arg3 : DevRef τ sig) := by
  after_results_simp

/-- No operation writes argument buffer 4. -/
theorem arg4_eq (V : Valuation τ sig (Elt F)) :
    after ops V (main_arg4 : DevRef τ sig) = V (main_arg4 : DevRef τ sig) := by
  after_results_simp

/-- No operation writes argument buffer 5. -/
theorem arg5_eq (V : Valuation τ sig (Elt F)) :
    after ops V (main_arg5 : DevRef τ sig) = V (main_arg5 : DevRef τ sig) := by
  after_results_simp

/-- No operation writes argument buffer 6. -/
theorem arg6_eq (V : Valuation τ sig (Elt F)) :
    after ops V (main_arg6 : DevRef τ sig) = V (main_arg6 : DevRef τ sig) := by
  after_results_simp

/-- No operation writes argument buffer 7. -/
theorem arg7_eq (V : Valuation τ sig (Elt F)) :
    after ops V (main_arg7 : DevRef τ sig) = V (main_arg7 : DevRef τ sig) := by
  after_results_simp

/-- No operation writes argument buffer 8. -/
theorem arg8_eq (V : Valuation τ sig (Elt F)) :
    after ops V (main_arg8 : DevRef τ sig) = V (main_arg8 : DevRef τ sig) := by
  after_results_simp

/-- No operation writes argument buffer 9. -/
theorem arg9_eq (V : Valuation τ sig (Elt F)) :
    after ops V (main_arg9 : DevRef τ sig) = V (main_arg9 : DevRef τ sig) := by
  after_results_simp

/-- For any float values, from any memory with zero counters: every weakly fair execution of the reference
    terminates, its result buffer holds `result` of the launch contents of its argument buffers, and the ten
    argument buffers hold what they held at launch. -/
theorem runF (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v47) = result (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v47).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

/-- The same at the ideal instance (floats the extended reals). -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v47) = result (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  runF (F := Ideal) m ρ

/-- The reference runs and its argument buffers end unchanged. -/
theorem frame : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run m ρ)

end Cert.ReferenceIdeal.RefValue

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.PreFinite.lean ====
import proofs.«102576_j28432683499905_1_alg».proof.Proof.LibReal
import proofs.«102576_j28432683499905_1_alg».proof.Pre_finite_inputs
import proofs.«102576_j28432683499905_1_alg».proof.Proof.Gen.Pre_finite_inputs
import Idealize.ShloMosaic.Lib.ReduceAll
import Idealize.ShloMosaic.Lib.ValueIdx

/-!
# The precondition says every float input is real

The precondition is a function of the ten input arrays that answers a one-bit scalar: for each of
the nine float arrays it compares `|a i| < +∞` at every index, reduces the answers by `and` over
all axes, and joins the nine results by `and`. If the scalar is `1`, every one of the nine
reductions is `1`, so every comparison is `1`, so every entry `a i` of every float array
satisfies `max (a i) (-(a i)) < ⊤` and is therefore a real number.
-/

noncomputable section

namespace Cert.GinMath

open Idealize.ShloMosaic
open Cert.Pre_finite_inputs

/-- The rank-0 shape has one index. -/
instance subsingleton_scalar_idx : Subsingleton S_.Idx := ⟨fun a b => funext fun d => d.elim0⟩

/-- One `all (|a| < +∞)`: if the reduction by `and` over all axes of the comparisons
`|a i| < +∞` is `1`, every entry of `a` is real. -/
theorem isReal_of_all_abs_lt_inf {s : Shape} {axes : List (Fin s.rank)} (a : FVec Ideal s .f32)
    (hb : S_.BroadcastsInDim s (![] : Fin 0 → Fin s.rank)) (h : s.ReducesTo axes S_)
    (hu : 0 < S_.numel) (init : IVec S_ 1) (j : S_.Idx)
    (e : Host.reduce IntOp.andi
        (cmpf .olt (Host.absf a) (broadcastInDim s ![] hb (constant S_ .f32 0x7F800000#32)))
        init h hu j = 1#1)
    (i : s.Idx) : IsReal (a i) :=
  isReal_of_cmp_abs_lt_inf (Host.reduce_andi_all _ init h hu j e i)

/-- The precondition, answered `1`, makes every entry of every float input a real number. -/
theorem finite_of_pre_all (x : FVec Ideal S100000x64 .f32) (ei : IVec S2x1600000 32)
    (ea : FVec Ideal S1600000x4 .f32) (w : FVec Ideal S1600000 .f32) (W1 : FVec Ideal S64x128 .f32)
    (b1 gamma beta : FVec Ideal S128 .f32) (W2 : FVec Ideal S128x128 .f32) (b2 : FVec Ideal S128 .f32)
    (hpre : Cert.Pre_finite_inputs.fn (F := Ideal) x ei ea w W1 b1 gamma beta W2 b2 = fun _ => 1#1) :
    (∀ i, IsReal (x i)) ∧ (∀ i, IsReal (ea i)) ∧ (∀ i, IsReal (w i)) ∧ (∀ i, IsReal (W1 i)) ∧
      (∀ i, IsReal (b1 i)) ∧ (∀ i, IsReal (gamma i)) ∧ (∀ i, IsReal (beta i)) ∧
      (∀ i, IsReal (W2 i)) ∧ (∀ i, IsReal (b2 i)) := by
  have h0 := congrFun hpre ValueIdx.ix0
  dsimp only [Cert.Pre_finite_inputs.fn, Cert.Pre_finite_inputs.fn_part1,
    Cert.Pre_finite_inputs.fn_part2, andi] at h0
  obtain ⟨h0, hb2⟩ := IntOp.andi_eq_one.1 h0
  obtain ⟨h0, hW2⟩ := IntOp.andi_eq_one.1 h0
  obtain ⟨h0, hbeta⟩ := IntOp.andi_eq_one.1 h0
  obtain ⟨h0, hgamma⟩ := IntOp.andi_eq_one.1 h0
  obtain ⟨h0, hb1⟩ := IntOp.andi_eq_one.1 h0
  obtain ⟨h0, hW1⟩ := IntOp.andi_eq_one.1 h0
  obtain ⟨h0, hw⟩ := IntOp.andi_eq_one.1 h0
  obtain ⟨hx, hea⟩ := IntOp.andi_eq_one.1 h0
  exact ⟨isReal_of_all_abs_lt_inf x _ _ _ _ _ hx, isReal_of_all_abs_lt_inf ea _ _ _ _ _ hea,
    isReal_of_all_abs_lt_inf w _ _ _ _ _ hw, isReal_of_all_abs_lt_inf W1 _ _ _ _ _ hW1,
    isReal_of_all_abs_lt_inf b1 _ _ _ _ _ hb1, isReal_of_all_abs_lt_inf gamma _ _ _ _ _ hgamma,
    isReal_of_all_abs_lt_inf beta _ _ _ _ _ hbeta, isReal_of_all_abs_lt_inf W2 _ _ _ _ _ hW2,
    isReal_of_all_abs_lt_inf b2 _ _ _ _ _ hb2⟩

/-- The four inputs the first linear layer's output depends on are real. -/
theorem finite_of_pre (x : FVec Ideal S100000x64 .f32) (ei : IVec S2x1600000 32)
    (ea : FVec Ideal S1600000x4 .f32) (w : FVec Ideal S1600000 .f32) (W1 : FVec Ideal S64x128 .f32)
    (b1 gamma beta : FVec Ideal S128 .f32) (W2 : FVec Ideal S128x128 .f32) (b2 : FVec Ideal S128 .f32)
    (hpre : Cert.Pre_finite_inputs.fn (F := Ideal) x ei ea w W1 b1 gamma beta W2 b2 = fun _ => 1#1) :
    (∀ i, IsReal (x i)) ∧ (∀ i, IsReal (w i)) ∧ (∀ i, IsReal (W1 i)) ∧ (∀ i, IsReal (b1 i)) := by
  obtain ⟨hx, -, hw, hW1, hb1, -⟩ := finite_of_pre_all x ei ea w W1 b1 gamma beta W2 b2 hpre
  exact ⟨hx, hw, hW1, hb1⟩

end Cert.GinMath

end
-- ==== Proof.VarIdentity.lean ====
import proofs.«102576_j28432683499905_1_alg».proof.Proof.LibReal

/-!
# Two formulas for a variance

For real numbers `h i` indexed by a finite set of `n` elements, with `S1 = ∑ h i` and
`S2 = ∑ h i * h i`, the mean of the squared deviations from the mean `S1 / n` equals
`S2 / n - (S1 / n) * (S1 / n)`:

  `∑ (h i - m)² = S2 - 2 m S1 + n m²` with `m = S1 / n`, so `∑ (h i - m)² / n = S2 / n - m²`.

Over the extended reals both formulas, written with the extended reals' sum, difference and
product and with division by the real `n ≠ 0`, are the coercion of their real counterparts as
long as every `h i` is real; hence they agree there. (At an infinite `h i` they need not: the
difference of two infinities has a conventional value.)
-/

noncomputable section

namespace Cert.GinMath

open Idealize.ShloMosaic
open scoped BigOperators

section OnFinset

variable {ι : Type*} (s : Finset ι)

/-- Over the reals: the mean squared deviation from the mean is the mean of the squares minus the
square of the mean. -/
theorem var_real_on (h : ι → ℝ) (n : ℝ) (hn : n ≠ 0) (hcard : (s.card : ℝ) = n) :
    (∑ i ∈ s, (h i - (∑ i' ∈ s, h i') / n) * (h i - (∑ i' ∈ s, h i') / n)) / n
      = (∑ i ∈ s, h i * h i) / n - ((∑ i ∈ s, h i) / n) * ((∑ i ∈ s, h i) / n) := by
  have e : ∀ m : ℝ, ∑ i ∈ s, (h i - m) * (h i - m)
      = (∑ i ∈ s, h i * h i) - 2 * m * (∑ i ∈ s, h i) + n * (m * m) := by
    intro m
    have e' : ∀ i, (h i - m) * (h i - m) = h i * h i - 2 * m * h i + m * m := fun i => by ring
    simp only [e']
    rw [Finset.sum_add_distrib, Finset.sum_sub_distrib, ← Finset.mul_sum, Finset.sum_const,
      nsmul_eq_mul, hcard]
  rw [e]
  field_simp
  ring

/-- The mean of the squares minus the square of the mean, computed in the extended reals from
real terms, is the coercion of the same expression over the reals. -/
theorem kernel_form_on (h : ι → ℝ) (n : ℝ) (hn : n ≠ 0) :
    Ideal.div (∑ i ∈ s, ((h i : EReal) * (h i : EReal))) (n : EReal)
        - Ideal.div (∑ i ∈ s, (h i : EReal)) (n : EReal) * Ideal.div (∑ i ∈ s, (h i : EReal)) (n : EReal)
      = (((∑ i ∈ s, h i * h i) / n - ((∑ i ∈ s, h i) / n) * ((∑ i ∈ s, h i) / n) : ℝ) : EReal) := by
  have e1 : (∑ i ∈ s, ((h i : EReal) * (h i : EReal))) = ((∑ i ∈ s, h i * h i : ℝ) : EReal) := by
    rw [coe_sum]; exact Finset.sum_congr rfl fun i _ => (EReal.coe_mul _ _).symm
  rw [e1, ← coe_sum, div_coe_coe _ hn, div_coe_coe _ hn, ← EReal.coe_mul, ← EReal.coe_sub]

/-- The mean squared deviation from the mean, computed in the extended reals from real terms, is
the coercion of the same expression over the reals. -/
theorem reference_form_on (h : ι → ℝ) (n : ℝ) (hn : n ≠ 0) :
    Ideal.div (∑ i ∈ s, (((h i : EReal) - Ideal.div (∑ i' ∈ s, (h i' : EReal)) (n : EReal))
        * ((h i : EReal) - Ideal.div (∑ i' ∈ s, (h i' : EReal)) (n : EReal)))) (n : EReal)
      = (((∑ i ∈ s, (h i - (∑ i' ∈ s, h i') / n) * (h i - (∑ i' ∈ s, h i') / n)) / n : ℝ) : EReal) := by
  rw [← coe_sum, div_coe_coe _ hn]
  have e : (∑ i ∈ s, (((h i : EReal) - (((∑ i' ∈ s, h i') / n : ℝ) : EReal))
        * ((h i : EReal) - (((∑ i' ∈ s, h i') / n : ℝ) : EReal))))
      = ((∑ i ∈ s, (h i - (∑ i' ∈ s, h i') / n) * (h i - (∑ i' ∈ s, h i') / n) : ℝ) : EReal) := by
    rw [coe_sum]
    refine Finset.sum_congr rfl fun i _ => ?_
    rw [← EReal.coe_sub, ← EReal.coe_mul]
  rw [e, div_coe_coe _ hn]

/-- For real terms the two variance formulas agree in the extended reals. -/
theorem var_forms_agree_on (h : ι → ℝ) (n : ℝ) (hn : n ≠ 0) (hcard : (s.card : ℝ) = n) :
    Ideal.div (∑ i ∈ s, ((h i : EReal) * (h i : EReal))) (n : EReal)
        - Ideal.div (∑ i ∈ s, (h i : EReal)) (n : EReal) * Ideal.div (∑ i ∈ s, (h i : EReal)) (n : EReal)
      = Ideal.div (∑ i ∈ s, (((h i : EReal) - Ideal.div (∑ i' ∈ s, (h i' : EReal)) (n : EReal))
        * ((h i : EReal) - Ideal.div (∑ i' ∈ s, (h i' : EReal)) (n : EReal)))) (n : EReal) := by
  rw [kernel_form_on s h n hn, reference_form_on s h n hn, var_real_on s h n hn hcard]

/-- A family of extended reals that is real on a finite set is, on that set, the coercion of a
family of reals. -/
theorem exists_real_fun_on {f : ι → EReal} (hf : ∀ i ∈ s, IsReal (f i)) :
    ∃ g : ι → ℝ, ∀ i ∈ s, f i = (g i : EReal) :=
  ⟨fun i => (f i).toReal, fun i hi => by
    obtain ⟨r, hr⟩ := hf i hi
    show f i = (((f i).toReal : ℝ) : EReal)
    rw [hr, EReal.toReal_coe]⟩

/-- The two variance formulas agree for extended reals that are real on the index set. -/
theorem var_forms_agree_of_isReal_on (f : ι → EReal) (hf : ∀ i ∈ s, IsReal (f i)) (n : ℝ)
    (hn : n ≠ 0) (hcard : (s.card : ℝ) = n) :
    Ideal.div (∑ i ∈ s, f i * f i) (n : EReal)
        - Ideal.div (∑ i ∈ s, f i) (n : EReal) * Ideal.div (∑ i ∈ s, f i) (n : EReal)
      = Ideal.div (∑ i ∈ s, ((f i - Ideal.div (∑ i' ∈ s, f i') (n : EReal))
        * (f i - Ideal.div (∑ i' ∈ s, f i') (n : EReal)))) (n : EReal) := by
  obtain ⟨g, hg⟩ := exists_real_fun_on s hf
  have e1 : ∑ i ∈ s, f i = ∑ i ∈ s, (g i : EReal) := Finset.sum_congr rfl hg
  have e2 : ∑ i ∈ s, f i * f i = ∑ i ∈ s, (g i : EReal) * (g i : EReal) :=
    Finset.sum_congr rfl fun i hi => by rw [hg i hi]
  have e3 : ∀ D : EReal, ∑ i ∈ s, (f i - D) * (f i - D)
      = ∑ i ∈ s, ((g i : EReal) - D) * ((g i : EReal) - D) :=
    fun D => Finset.sum_congr rfl fun i hi => by rw [hg i hi]
  rw [e1, e2, e3]
  exact var_forms_agree_on s g n hn hcard

end OnFinset

section OnFintype

variable {ι : Type*} [Fintype ι]

/-- Over the reals, summing over a whole finite type: the mean squared deviation from the mean is
the mean of the squares minus the square of the mean. -/
theorem var_real (h : ι → ℝ) (n : ℝ) (hn : n ≠ 0) (hcard : (Fintype.card ι : ℝ) = n) :
    (∑ i, (h i - (∑ i', h i') / n) * (h i - (∑ i', h i') / n)) / n
      = (∑ i, h i * h i) / n - ((∑ i, h i) / n) * ((∑ i, h i) / n) :=
  var_real_on Finset.univ h n hn (by rw [Finset.card_univ]; exact hcard)

/-- `kernel_form_on` over a whole finite type. -/
theorem kernel_form (h : ι → ℝ) (n : ℝ) (hn : n ≠ 0) :
    Ideal.div (∑ i, ((h i : EReal) * (h i : EReal))) (n : EReal)
        - Ideal.div (∑ i, (h i : EReal)) (n : EReal) * Ideal.div (∑ i, (h i : EReal)) (n : EReal)
      = (((∑ i, h i * h i) / n - ((∑ i, h i) / n) * ((∑ i, h i) / n) : ℝ) : EReal) :=
  kernel_form_on Finset.univ h n hn

/-- `reference_form_on` over a whole finite type. -/
theorem reference_form (h : ι → ℝ) (n : ℝ) (hn : n ≠ 0) :
    Ideal.div (∑ i, (((h i : EReal) - Ideal.div (∑ i', (h i' : EReal)) (n : EReal))
        * ((h i : EReal) - Ideal.div (∑ i', (h i' : EReal)) (n : EReal)))) (n : EReal)
      = (((∑ i, (h i - (∑ i', h i') / n) * (h i - (∑ i', h i') / n)) / n : ℝ) : EReal) :=
  reference_form_on Finset.univ h n hn

/-- `var_forms_agree_on` over a whole finite type. -/
theorem var_forms_agree (h : ι → ℝ) (n : ℝ) (hn : n ≠ 0) (hcard : (Fintype.card ι : ℝ) = n) :
    Ideal.div (∑ i, ((h i : EReal) * (h i : EReal))) (n : EReal)
        - Ideal.div (∑ i, (h i : EReal)) (n : EReal) * Ideal.div (∑ i, (h i : EReal)) (n : EReal)
      = Ideal.div (∑ i, (((h i : EReal) - Ideal.div (∑ i', (h i' : EReal)) (n : EReal))
        * ((h i : EReal) - Ideal.div (∑ i', (h i' : EReal)) (n : EReal)))) (n : EReal) :=
  var_forms_agree_on Finset.univ h n hn (by rw [Finset.card_univ]; exact hcard)

/-- `var_forms_agree_of_isReal_on` over a whole finite type. -/
theorem var_forms_agree_of_isReal (f : ι → EReal) (hf : ∀ i, IsReal (f i)) (n : ℝ)
    (hn : n ≠ 0) (hcard : (Fintype.card ι : ℝ) = n) :
    Ideal.div (∑ i, f i * f i) (n : EReal)
        - Ideal.div (∑ i, f i) (n : EReal) * Ideal.div (∑ i, f i) (n : EReal)
      = Ideal.div (∑ i, ((f i - Ideal.div (∑ i', f i') (n : EReal))
        * (f i - Ideal.div (∑ i', f i') (n : EReal)))) (n : EReal) :=
  var_forms_agree_of_isReal_on Finset.univ f (fun i _ => hf i) n hn
    (by rw [Finset.card_univ]; exact hcard)

end OnFintype

end Cert.GinMath

end
-- ==== Proof.Regroup.lean ====
import proofs.«102576_j28432683499905_1_alg».proof.Proof.LibReal

/-!
# Summing tile by tile

`100000 = 50 · 2000` rows are summed either all at once or tile by tile, `50` tiles of `2000`
consecutive rows each: row `r` of tile `t` is row `2000 t + r`, and `(t, r) ↦ 2000 t + r` is a
bijection from `Fin 50 × Fin 2000` onto `Fin 100000`, so the two sums have the same terms. The
tile sum is written with a guard `2000 t + r < 100000` on each term; the guard always holds.
-/

noncomputable section

namespace Cert.GinMath

open scoped BigOperators

/-- The pairing of a tile number and a row inside the tile with the row number `2000 t + r`. -/
def tileEquiv : Fin 50 × Fin 2000 ≃ Fin 100000 :=
  finProdFinEquiv.trans (finCongr (by norm_num))

/-- Row `r` of tile `t` is row `2000 t + r`. -/
theorem tileEquiv_val (t : Fin 50) (r : Fin 2000) :
    (tileEquiv (t, r)).val = 2000 * t.val + r.val := by
  show r.val + 2000 * t.val = 2000 * t.val + r.val
  exact add_comm _ _

/-- Every row of every tile is one of the `100000` rows. -/
theorem tile_row_lt (t : Fin 50) (r : Fin 2000) : 2000 * t.val + r.val < 100000 := by
  have h1 := t.isLt
  have h2 := r.isLt
  omega

/-- Summing tile by tile is summing all rows, in any commutative additive monoid. -/
theorem sum_tiles_of {M : Type*} [AddCommMonoid M] (f : Fin 100000 → M) :
    (∑ t ∈ Finset.range 50, ∑ r : Fin 2000,
        (if h : 2000 * t + r.val < 100000 then f ⟨2000 * t + r.val, h⟩ else 0))
      = ∑ i : Fin 100000, f i := by
  rw [Finset.sum_range]
  have e : ∀ (t : Fin 50) (r : Fin 2000),
      (if h : 2000 * t.val + r.val < 100000 then f ⟨2000 * t.val + r.val, h⟩ else 0)
        = f (tileEquiv (t, r)) := by
    intro t r
    rw [dif_pos (tile_row_lt t r)]
    exact congrArg f (Fin.ext (tileEquiv_val t r).symm)
  calc (∑ t : Fin 50, ∑ r : Fin 2000,
          (if h : 2000 * t.val + r.val < 100000 then f ⟨2000 * t.val + r.val, h⟩ else 0))
      = ∑ t : Fin 50, ∑ r : Fin 2000, f (tileEquiv (t, r)) :=
        Fintype.sum_congr _ _ fun t => Fintype.sum_congr _ _ fun r => e t r
    _ = ∑ x : Fin 50 × Fin 2000, f (tileEquiv x) :=
        (Fintype.sum_prod_type fun x => f (tileEquiv x)).symm
    _ = ∑ i : Fin 100000, f i := Equiv.sum_comp tileEquiv f

/-- Summing extended reals tile by tile is summing all rows. -/
theorem sum_tiles (f : Fin 100000 → EReal) :
    (∑ t ∈ Finset.range 50, ∑ r : Fin 2000,
        (if h : 2000 * t + r.val < 100000 then f ⟨2000 * t + r.val, h⟩ else 0))
      = ∑ i : Fin 100000, f i :=
  sum_tiles_of f

end Cert.GinMath

end
-- ==== Proof.KStats.lean ====
/-
  The batch statistics the kernel program computes are the reference's.

  The kernel's mean row is the tile-by-tile column sum divided by 100000, and summing 100000 rows tile by tile is
  summing all rows, so it is the column mean. Its variance row is  Σh²/n − (Σh/n)² ; the reference's is
  Σ(h − Σh/n)²/n . Over the reals these are one number; over the extended reals they are when every entry of the
  column is finite, which is where the finiteness of the inputs is used.
-/
import proofs.«102576_j28432683499905_1_alg».proof.Proof.KReg0
import proofs.«102576_j28432683499905_1_alg».proof.Proof.KHost
import proofs.«102576_j28432683499905_1_alg».proof.Proof.LibReal
import proofs.«102576_j28432683499905_1_alg».proof.Proof.VarIdentity
import proofs.«102576_j28432683499905_1_alg».proof.Proof.Regroup

set_option maxRecDepth 16384

noncomputable section

namespace Cert.KernelIdeal.KVal

open Idealize.ShloMosaic Idealize.ShloMosaic.ValueIdx
open Cert.KernelIdeal Cert.GinMath

/-- An accumulator after the last tile holds the zero word plus the sum over all 100000 rows. -/
theorem accSum_all (f : Fin 100000 → EReal) :
    accSum f 49 = Ideal.ofBits .f32 0x00000000#32 + ∑ i : Fin 100000, f i := by
  unfold accSum tileSum
  exact congrArg (Ideal.ofBits .f32 0x00000000#32 + ·) (sum_tiles f)

/-- A 128-vector laid out as a row reads, at column `k`, the vector's entry `k`. -/
theorem rowK_apply (v : FVec Ideal S128 .f32) (k : Fin 128) : rowK (F := Ideal) v (ix2 (0 : Fin 1) k) = v (ix1 k) :=
  shapeCast_a_1a_apply v _ (0 : Fin 1) k

/-- The mean row at a column is the quotient of the tile-by-tile column sum by the row count. -/
theorem meanK_apply (s1 : FVec Ideal S1x128 .f32) (k : Fin 128) :
    meanK (F := Ideal) s1 (ix2 (0 : Fin 1) k) = Ideal.div (s1 (ix2 (0 : Fin 1) k)) (Ideal.ofBits .f32 0x47C35000#32) := rfl

/-- The variance row at a column: the mean of the squares minus the square of the mean. -/
theorem varK_apply (s1 s2 : FVec Ideal S1x128 .f32) (k : Fin 128) :
    varK (F := Ideal) s1 s2 (ix2 (0 : Fin 1) k)
      = Ideal.div (s2 (ix2 (0 : Fin 1) k)) (Ideal.ofBits .f32 0x47C35000#32)
        - Ideal.div (s1 (ix2 (0 : Fin 1) k)) (Ideal.ofBits .f32 0x47C35000#32)
          * Ideal.div (s1 (ix2 (0 : Fin 1) k)) (Ideal.ofBits .f32 0x47C35000#32) := rfl

/-- THE MEAN: the kernel's mean of a column is the zero word plus the column's sum, over the row count. -/
theorem mean_bridge (h : S100000x128.Idx → EReal) (k : Fin 128) :
    meanK (F := Ideal) (S1of h) (ix2 (0 : Fin 1) k)
      = Ideal.div (Ideal.ofBits .f32 0x00000000#32 + ∑ i : Fin 100000, h (ix2 i k)) (Ideal.ofBits .f32 0x47C35000#32) := by
  rw [meanK_apply]
  exact congrArg (Ideal.div · (Ideal.ofBits .f32 0x47C35000#32)) (accSum_all fun p => h (ix2 p k))

/-- THE VARIANCE: when the column's entries are finite, the mean of the squares minus the square of the mean is the
    mean of the squared deviations from the mean. -/
theorem var_bridge (h : S100000x128.Idx → EReal) (hf : ∀ i, IsReal (h i)) (k : Fin 128) :
    varK (F := Ideal) (S1of h) (S2of h) (ix2 (0 : Fin 1) k)
      = Ideal.div (Ideal.ofBits .f32 0x00000000#32 + ∑ i : Fin 100000,
          ((h (ix2 i k) - Ideal.div (Ideal.ofBits .f32 0x00000000#32 + ∑ i' : Fin 100000, h (ix2 i' k)) (Ideal.ofBits .f32 0x47C35000#32))
            * (h (ix2 i k) - Ideal.div (Ideal.ofBits .f32 0x00000000#32 + ∑ i' : Fin 100000, h (ix2 i' k)) (Ideal.ofBits .f32 0x47C35000#32))))
          ((100000 : ℝ) : EReal) := by
  rw [varK_apply]
  have e1 : S1of h (ix2 (0 : Fin 1) k) = ∑ i : Fin 100000, h (ix2 i k) :=
    (accSum_all fun p => h (ix2 p k)).trans (by rw [ofBits_zero, zero_add])
  have e2 : S2of h (ix2 (0 : Fin 1) k) = ∑ i : Fin 100000, h (ix2 i k) * h (ix2 i k) :=
    (accSum_all fun p => h (ix2 p k) * h (ix2 p k)).trans (by rw [ofBits_zero, zero_add])
  rw [e1, e2, ofBits_zero, zero_add, zero_add, ofBits_1e5]
  exact var_forms_agree_of_isReal (fun i : Fin 100000 => h (ix2 i k)) (fun i => hf _) 100000 (by norm_num)
    (by rw [Fintype.card_fin]; norm_num)

end Cert.KernelIdeal.KVal

end
-- ==== Proof.RefReadA.lean ====
/-
  The reference's stages read at an index, on the extended reals. An entry of a product of matrices is the sum over
  the contracted axis of the products of the operands' entries; a row vector broadcast down the rows reads its own
  entry at the column; the pointwise operations read pointwise. So at row p and column k

    h p k      = Σ_l out p l · W1 l k + b1 k
    hn p k     = ((h p k − mean k) · rsqrt (var k + ε)) · γ k + β k
    result p j = Σ_k max (hn p k) 0 · W2 k j + b2 j .
-/
import proofs.«102576_j28432683499905_1_alg».proof.Proof.RefStages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Facts₀
open scoped BigOperators

/-! ## Broadcasts at an index -/

/-- A vector of 128 entries laid out as one row and repeated down the 100000 rows reads, at row `p` and column
    `k`, its own entry `k`. -/
theorem rowBcast_apply {α : Type} (v : S128.Idx → α) (p : Fin 100000) (k : Fin 128) :
    broadcastInDim S100000x128 ![0, 1] bcast_S1x128_S100000x128_0_1
        (broadcastInDim S1x128 ![1] bcast_S128_S1x128_1 v) (ix2 p k) = v (ix1 k) := by
  refine (broadcastInDim_apply _ _ _ (ix2 p k) (ix2 (0 : Fin 1) k) ?_).trans ?_
  · intro a
    match a with
    | ⟨0, _⟩ => rfl
    | ⟨1, _⟩ => rfl
  · refine broadcastInDim_apply _ _ _ (ix2 (0 : Fin 1) k) (ix1 k) ?_
    intro a
    match a with
    | ⟨0, _⟩ => rfl

/-! ## The two products of matrices at an index -/

/-- The first product's contraction index is its one coordinate: the sum over it is the sum over the 64 input features of the left row's entry times the right column's. -/
theorem dotA_sum (lhs : S100000x64.Idx → EReal) (rhs : S64x128.Idx → EReal) (p : Fin 100000) (j : Fin 128) :
    (∑ k : dot_S100000x64_S64x128_S100000x128_1_0_0_1_n_n.contr.Idx,
        lhs (dot_S100000x64_S64x128_S100000x128_1_0_0_1_n_n.lhsIdx (ix2 p j) k) * rhs (dot_S100000x64_S64x128_S100000x128_1_0_0_1_n_n.rhsIdx (ix2 p j) k))
      = ∑ k : Fin 64, lhs (ix2 p k) * rhs (ix2 k j) := by
  rw [← Equiv.sum_comp (contrEquiv1 dot_S100000x64_S64x128_S100000x128_1_0_0_1_n_n 64 rfl rfl).symm]
  refine Finset.sum_congr rfl fun k _ => ?_
  have e1 : dot_S100000x64_S64x128_S100000x128_1_0_0_1_n_n.lhsIdx (ix2 p j) ((contrEquiv1 dot_S100000x64_S64x128_S100000x128_1_0_0_1_n_n 64 rfl rfl).symm k) = ix2 p k := by
    funext a; apply Fin.ext
    match a with
    | ⟨0, _⟩ => rfl
    | ⟨1, _⟩ => exact (DotDims.lhsIdx_val_of_single _ rfl _ _).trans (contrEquiv1_symm_val _ 64 rfl rfl k)
  have e2 : dot_S100000x64_S64x128_S100000x128_1_0_0_1_n_n.rhsIdx (ix2 p j) ((contrEquiv1 dot_S100000x64_S64x128_S100000x128_1_0_0_1_n_n 64 rfl rfl).symm k) = ix2 k j := by
    funext a; apply Fin.ext
    match a with
    | ⟨0, _⟩ => exact (DotDims.rhsIdx_val_of_single _ rfl _ _).trans (contrEquiv1_symm_val _ 64 rfl rfl k)
    | ⟨1, _⟩ => rfl
  rw [e1, e2]

/-- The second product's contraction index is its one coordinate: the sum over it is the sum over the 128 hidden features of the left row's entry times the right column's. -/
theorem dotB_sum (lhs : S100000x128.Idx → EReal) (rhs : S128x128.Idx → EReal) (p : Fin 100000) (j : Fin 128) :
    (∑ k : dot_S100000x128_S128x128_S100000x128_1_0_0_1_n_n.contr.Idx,
        lhs (dot_S100000x128_S128x128_S100000x128_1_0_0_1_n_n.lhsIdx (ix2 p j) k) * rhs (dot_S100000x128_S128x128_S100000x128_1_0_0_1_n_n.rhsIdx (ix2 p j) k))
      = ∑ k : Fin 128, lhs (ix2 p k) * rhs (ix2 k j) := by
  rw [← Equiv.sum_comp (contrEquiv1 dot_S100000x128_S128x128_S100000x128_1_0_0_1_n_n 128 rfl rfl).symm]
  refine Finset.sum_congr rfl fun k _ => ?_
  have e1 : dot_S100000x128_S128x128_S100000x128_1_0_0_1_n_n.lhsIdx (ix2 p j) ((contrEquiv1 dot_S100000x128_S128x128_S100000x128_1_0_0_1_n_n 128 rfl rfl).symm k) = ix2 p k := by
    funext a; apply Fin.ext
    match a with
    | ⟨0, _⟩ => rfl
    | ⟨1, _⟩ => exact (DotDims.lhsIdx_val_of_single _ rfl _ _).trans (contrEquiv1_symm_val _ 128 rfl rfl k)
  have e2 : dot_S100000x128_S128x128_S100000x128_1_0_0_1_n_n.rhsIdx (ix2 p j) ((contrEquiv1 dot_S100000x128_S128x128_S100000x128_1_0_0_1_n_n 128 rfl rfl).symm k) = ix2 k j := by
    funext a; apply Fin.ext
    match a with
    | ⟨0, _⟩ => exact (DotDims.rhsIdx_val_of_single _ rfl _ _).trans (contrEquiv1_symm_val _ 128 rfl rfl k)
    | ⟨1, _⟩ => rfl
  rw [e1, e2]

/-- `out @ W1 + b1` at row `p`, column `k`. -/
theorem hOf_apply (out : FVec Ideal S100000x64 .f32) (W1 : FVec Ideal S64x128 .f32) (b1 : FVec Ideal S128 .f32)
    (p : Fin 100000) (k : Fin 128) :
    hOf (F := Ideal) out W1 b1 (ix2 p k) = (∑ l : Fin 64, out (ix2 p l) * W1 (ix2 l k)) + b1 (ix1 k) := by
  unfold hOf
  refine (addf_apply _ _ _).trans ?_
  refine congrArg₂ (· + ·) ?_ (rowBcast_apply b1 p k)
  simp only [Host.dotGeneral]
  refine (Ideal.dotGeneral_apply _ none _ _ _ (ix2 p k)).trans ?_
  exact dotA_sum out W1 p k

/-- The normalisation at row `p`, column `k`: the four row vectors read at the column. -/
theorem normOf_apply (h : FVec Ideal S100000x128 .f32) (mean var g b : FVec Ideal S128 .f32) (p : Fin 100000) (k : Fin 128) :
    normOf (F := Ideal) h mean var g b (ix2 p k)
      = ((h (ix2 p k) - mean (ix1 k)) * Ideal.rsqrt (var (ix1 k) + Ideal.ofBits .f32 0x3727C5AC#32)) * g (ix1 k) + b (ix1 k) := by
  unfold normOf
  refine (addf_apply _ _ _).trans ?_
  refine congrArg₂ (· + ·) ?_ (rowBcast_apply b p k)
  refine (mulf_apply _ _ _).trans ?_
  refine congrArg₂ (· * ·) ?_ (rowBcast_apply g p k)
  refine (mulf_apply _ _ _).trans ?_
  refine congrArg₂ (· * ·) ?_ ?_
  · refine (subf_apply _ _ _).trans ?_
    exact congrArg₂ (· - ·) rfl (rowBcast_apply mean p k)
  · refine (rowBcast_apply _ p k).trans ?_
    rfl

/-- `relu(hn) @ W2 + b2` at row `p`, column `j`. -/
theorem resultOf_apply (hn : FVec Ideal S100000x128 .f32) (W2 : FVec Ideal S128x128 .f32) (b2 : FVec Ideal S128 .f32)
    (p : Fin 100000) (j : Fin 128) :
    resultOf (F := Ideal) hn W2 b2 (ix2 p j)
      = (∑ k : Fin 128, max (hn (ix2 p k)) (Ideal.ofBits .f32 0x00000000#32) * W2 (ix2 k j)) + b2 (ix1 j) := by
  unfold resultOf
  refine (addf_apply _ _ _).trans ?_
  refine congrArg₂ (· + ·) ?_ (rowBcast_apply b2 p j)
  simp only [Host.dotGeneral]
  refine (Ideal.dotGeneral_apply _ none _ _ _ (ix2 p j)).trans ?_
  refine (dotB_sum _ W2 p j).trans ?_
  rfl

end Cert.ReferenceIdeal.RefValue

end
-- ==== Proof.RefReadB.lean ====
import proofs.«102576_j28432683499905_1_alg».proof.Proof.RefStages
import proofs.«102576_j28432683499905_1_alg».proof.Proof.LibReal
import Idealize.ShloMosaic.Lib.ValueIdx
import Idealize.ShloMosaic.Lib.ValueLayout
import Idealize.ShloMosaic.Lib.Pipeline.Value
import Idealize.ShloMosaic.PureOps.Ideal.Laws

/-!
# The reference's batch statistics at a column

Read at the extended reals, the reference's mean of column `k` of `h` is the sum of that column
from zero divided by `1e5`, and its variance of that column is the sum from zero of the squared
deviations from that mean, divided by `1e5 - 0 = 100000`: the divisor is positive, so the
`where` that guards it takes the quotient and never its other branch.
-/

noncomputable section

namespace Cert.ReferenceIdeal.RefValue

open Idealize.ShloMosaic Idealize.ShloMosaic.ValueIdx Cert.ReferenceIdeal Cert.ReferenceIdeal.Facts₀

/-- Reducing over the rows: the index of row `i` above column `k` is `(i, k)`. -/
private theorem lift_col (hR : S100000x128.Reduces [0] S128) (k : Fin 128) (i : Fin 100000) :
    hR.lift (ix1 k) i = ix2 i k := by
  funext a
  apply Fin.ext
  match a with
  | ⟨0, _⟩ => rfl
  | ⟨1, _⟩ => rfl

/-- The host's sum over the rows from the zero constant, at column `k`: the constant plus the sum
of the column. -/
private theorem colSum_apply (g : FVec Ideal S100000x128 .f32) (k : Fin 128) :
    Host.reduceAdd g (constant S_ .f32 0x00000000#32) reducesTo_S100000x128_S128_d0 h_S_ (ix1 k)
      = Ideal.ofBits .f32 0x00000000#32 + ∑ i : Fin 100000, g (ix2 i k) := by
  have hR : S100000x128.Reduces [0] S128 := by decide
  refine (Ideal.hostReduceAdd_single reducesTo_S100000x128_S128_d0 hR g _ (ix1 k)).trans ?_
  refine congrArg (fun z => Ideal.ofBits .f32 0x00000000#32 + z) ?_
  exact Fintype.sum_congr _ _ fun i => congrArg g (lift_col hR k i)

/-- The reference's mean of column `k`. -/
theorem meanOf_apply (h : FVec Ideal S100000x128 .f32) (k : Fin 128) :
    meanOf (F := Ideal) h (ix1 k)
      = Ideal.div (Ideal.ofBits .f32 0x00000000#32 + ∑ i : Fin 100000, h (ix2 i k))
          (Ideal.ofBits .f32 0x47C35000#32) := by
  show Ideal.div (Host.reduceAdd h (constant S_ .f32 0x00000000#32) reducesTo_S100000x128_S128_d0 h_S_ (ix1 k))
      (Ideal.ofBits .f32 0x47C35000#32) = _
  rw [colSum_apply]

/-- The mean that the variance computes for itself, kept as one row: at `(0, k)` it is the mean of
column `k`. -/
private theorem varMeanOf_apply (h : FVec Ideal S100000x128 .f32) (k : Fin 128) :
    varMeanOf (F := Ideal) h (ix2 0 k)
      = Ideal.div (Ideal.ofBits .f32 0x00000000#32 + ∑ i : Fin 100000, h (ix2 i k))
          (Ideal.ofBits .f32 0x47C35000#32) := by
  have e : broadcastInDim S1x128 ![1] bcast_S128_S1x128_1
      (Host.reduceAdd h (constant S_ .f32 0x00000000#32) reducesTo_S100000x128_S128_d0 h_S_) (ix2 0 k)
      = Host.reduceAdd h (constant S_ .f32 0x00000000#32) reducesTo_S100000x128_S128_d0 h_S_ (ix1 k) :=
    broadcastInDim_apply _ _ _ _ (ix1 k) fun a => by
      match a with
      | ⟨0, _⟩ => rfl
  show Ideal.div (broadcastInDim S1x128 ![1] bcast_S128_S1x128_1
      (Host.reduceAdd h (constant S_ .f32 0x00000000#32) reducesTo_S100000x128_S128_d0 h_S_) (ix2 0 k))
      (Ideal.ofBits .f32 0x47C35000#32) = _
  rw [e, colSum_apply]

/-- The deviation from the mean at `(i, k)`. -/
private theorem varCenteredOf_apply (h : FVec Ideal S100000x128 .f32) (i : Fin 100000) (k : Fin 128) :
    varCenteredOf (F := Ideal) h (ix2 i k)
      = h (ix2 i k) - Ideal.div (Ideal.ofBits .f32 0x00000000#32 + ∑ i' : Fin 100000, h (ix2 i' k))
          (Ideal.ofBits .f32 0x47C35000#32) := by
  have e : broadcastInDim S100000x128 ![0, 1] bcast_S1x128_S100000x128_0_1 (varMeanOf (F := Ideal) h) (ix2 i k)
      = varMeanOf (F := Ideal) h (ix2 0 k) :=
    broadcastInDim_apply _ _ _ _ (ix2 0 k) fun a => by
      match a with
      | ⟨0, _⟩ => rfl
      | ⟨1, _⟩ => rfl
  show h (ix2 i k)
      - broadcastInDim S100000x128 ![0, 1] bcast_S1x128_S100000x128_0_1 (varMeanOf (F := Ideal) h) (ix2 i k) = _
  rw [e, varMeanOf_apply]

/-- The variance's divisor `1e5 - 0` is the real `100000`. -/
private theorem varDenomOf_apply (j : S_.Idx) : varDenomOf (F := Ideal) j = ((100000 : ℝ) : EReal) := by
  show Ideal.ofBits .f32 0x47C35000#32 - ((((0#32 : BitVec 32).toInt : ℤ) : ℝ) : EReal) = _
  rw [Cert.GinMath.ofBits_1e5]
  simp

/-- The reference's variance of column `k`. -/
theorem varOf_apply (h : FVec Ideal S100000x128 .f32) (k : Fin 128) :
    varOf (F := Ideal) h (ix1 k)
      = Ideal.div (Ideal.ofBits .f32 0x00000000#32 + ∑ i : Fin 100000,
          ((h (ix2 i k) - Ideal.div (Ideal.ofBits .f32 0x00000000#32 + ∑ i' : Fin 100000, h (ix2 i' k))
              (Ideal.ofBits .f32 0x47C35000#32))
            * (h (ix2 i k) - Ideal.div (Ideal.ofBits .f32 0x00000000#32 + ∑ i' : Fin 100000, h (ix2 i' k))
              (Ideal.ofBits .f32 0x47C35000#32))))
          ((100000 : ℝ) : EReal) := by
  have hc : Ideal.cmp .ogt (varDenomOf (F := Ideal) ix0) (Ideal.ofBits .f32 0x00000000#32) = 1#1 := by
    rw [varDenomOf_apply, Cert.GinMath.ofBits_zero]
    show BitVec.ofBool (decide ((0 : EReal) < ((100000 : ℝ) : EReal))) = 1#1
    rw [Cert.GinMath.ofBool_eq_one_iff, decide_eq_true_eq]
    exact EReal.coe_pos.2 (by norm_num)
  show Scalar.select (Ideal.cmp .ogt (varDenomOf (F := Ideal) ix0) (Ideal.ofBits .f32 0x00000000#32))
      (Ideal.div (Host.reduceAdd (mulf (varCenteredOf (F := Ideal) h) (varCenteredOf (F := Ideal) h))
          (constant S_ .f32 0x00000000#32) reducesTo_S100000x128_S128_d0 h_S_ (ix1 k))
        (varDenomOf (F := Ideal) ix0))
      (Ideal.ofBits .f32 0x7FC00000#32) = _
  rw [hc, select_one, varDenomOf_apply, colSum_apply]
  refine congrArg (fun z => Ideal.div (Ideal.ofBits .f32 0x00000000#32 + z) ((100000 : ℝ) : EReal)) ?_
  refine Fintype.sum_congr _ _ fun i => ?_
  show varCenteredOf (F := Ideal) h (ix2 i k) * varCenteredOf (F := Ideal) h (ix2 i k) = _
  rw [varCenteredOf_apply]

end Cert.ReferenceIdeal.RefValue

end
-- ==== Proof.RefFinite.lean ====
import proofs.«102576_j28432683499905_1_alg».proof.Proof.RefStages
import proofs.«102576_j28432683499905_1_alg».proof.Proof.LibReal
import Idealize.ShloMosaic.PureOps.Ideal.Laws
import Idealize.ShloMosaic.Lib.ValueIdx

/-!
# The reference's aggregated features are real

Every entry of `out = x + Σ_{e : dst e = i} w e · x[src e]` is a finite sum of products of entries
of `x` and `w` (and of the constants `0` and `1`), so it is a real number whenever every entry of
`x` and of `w` is: a gathered entry is an entry of `x`, a broadcast entry is an entry of its operand,
and real extended reals are closed under sums and products.

Each operation gets its own lemma over arbitrary shapes, and the statements about the reference's
arrays only chain them: the index sets here have up to `1600000 · 64` elements and must stay
symbolic.
-/

noncomputable section

namespace Cert.ReferenceIdeal.RefValue

open Idealize.ShloMosaic Cert.ReferenceIdeal Cert.ReferenceIdeal.Facts₀
open Cert.GinMath

/-- An elementwise product is real where both factors are. -/
theorem isReal_mulf {s : Shape} {a b : FVec Ideal s .f32} (j : s.Idx) (ha : IsReal (a j))
    (hb : IsReal (b j)) : IsReal (mulf a b j) :=
  ha.mul hb

/-- An elementwise sum is real where both terms are. -/
theorem isReal_addf {s : Shape} {a b : FVec Ideal s .f32} (j : s.Idx) (ha : IsReal (a j))
    (hb : IsReal (b j)) : IsReal (addf a b j) :=
  ha.add hb

/-- A broadcast of an array of real entries has real entries: each of its entries is one of the
operand's. -/
theorem isReal_broadcastInDim {s t : Shape} {dims : Fin s.rank → Fin t.rank}
    {hb : s.BroadcastsInDim t dims} {v : s.Idx → EReal} (hv : ∀ i, IsReal (v i)) (j : t.Idx) :
    IsReal (broadcastInDim t dims hb v j) := by
  unfold broadcastInDim
  exact hv _

/-- A gather from an array of real entries has real entries: each of its entries is one of the
operand's. -/
theorem isReal_gather {s si t : Shape} {wd : Nat} (d : GatherDims s si t) {v : s.Idx → EReal}
    (idx : IVec si wd) (hv : ∀ i, IsReal (v i)) (j : t.Idx) : IsReal (Host.gather d v idx j) := by
  unfold Host.gather
  exact hv _

/-- An accumulating scatter of real updates into an array of real entries has real entries: each is
an operand entry plus a finite sum of updates. -/
theorem isReal_scatterAdd {s si su : Shape} {wd : Nat} (d : ScatterDims s si su)
    {v : FVec Ideal s .f32} (idx : IVec si wd) {upd : FVec Ideal su .f32}
    (hv : ∀ i, IsReal (v i)) (hupd : ∀ j, IsReal (upd j)) (i : s.Idx) :
    IsReal (Host.scatterAdd d v idx upd i) := by
  show IsReal (Ideal.hostScatterAdd d v idx upd i)
  unfold Ideal.hostScatterAdd
  exact (hv i).add (IsReal.sum fun j _ => hupd j)

/-- The zero constant is real. -/
theorem isReal_constant_zero {s : Shape} (j : s.Idx) :
    IsReal (constant (F := Ideal) s .f32 0x00000000#32 j) := by
  show IsReal (Ideal.ofBits .f32 0x00000000#32)
  rw [ofBits_zero]; exact isReal_zero

/-- The constant one is real. -/
theorem isReal_constant_one {s : Shape} (j : s.Idx) :
    IsReal (constant (F := Ideal) s .f32 0x3F800000#32 j) := by
  show IsReal (Ideal.ofBits .f32 0x3F800000#32)
  rw [ofBits_one]; exact IsReal.coe 1

/-- Every weighted message `w e · x[src e]` is real. -/
theorem msgOf_isReal (x : FVec Ideal S100000x64 .f32) (ei : IVec S2x1600000 32)
    (w : FVec Ideal S1600000 .f32) (hx : ∀ i, IsReal (x i)) (hw : ∀ i, IsReal (w i)) :
    ∀ j, IsReal (msgOf (F := Ideal) x ei w j) := by
  intro j
  unfold msgOf
  exact isReal_mulf j (isReal_gather _ _ hx j) (isReal_broadcastInDim (isReal_broadcastInDim hw) j)

/-- The messages summed at their destinations from zero are real. -/
theorem scattered_isReal (x : FVec Ideal S100000x64 .f32) (ei : IVec S2x1600000 32)
    (w : FVec Ideal S1600000 .f32) (hx : ∀ i, IsReal (x i)) (hw : ∀ i, IsReal (w i))
    (i : S100000x64.Idx) :
    IsReal (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dstOf ei))
      (msgOf (F := Ideal) x ei w) i) :=
  isReal_scatterAdd _ _ (isReal_broadcastInDim isReal_constant_zero) (msgOf_isReal x ei w hx hw) i

/-- Every entry of the aggregated features `x + Σ w · x[src]` is real. -/
theorem outOf_isReal (x : FVec Ideal S100000x64 .f32) (ei : IVec S2x1600000 32)
    (w : FVec Ideal S1600000 .f32) (hx : ∀ i, Cert.GinMath.IsReal (x i))
    (hw : ∀ i, Cert.GinMath.IsReal (w i)) :
    ∀ i, Cert.GinMath.IsReal (outOf (F := Ideal) x ei w i) := by
  intro i
  unfold outOf
  exact isReal_addf i (scattered_isReal x ei w hx hw i)
    (isReal_mulf i (isReal_broadcastInDim isReal_constant_one i) (hx i))

end Cert.ReferenceIdeal.RefValue

end
-- ==== Proof.Bridge.lean ====
/-
  The two programs compute one function.

  Index by index both results are
      Σ_k max(((h p k − mean k) · rsqrt(var k + ε)) · γ k + β k, 0) · W2 k j + b2 j ,
  with h the first linear layer of the aggregated node features. The aggregated features are built by the same host
  operations in both programs. The kernel reads h, the mean and the variance through its two pallas_calls (h tile by
  tile, the statistics from accumulated column sums); the reference computes them with whole-array operations. The
  first layer and the mean agree by re-grouping sums; the variance agrees because every entry of h is finite when
  the inputs are.
-/
import proofs.«102576_j28432683499905_1_alg».proof.Proof.KFinal
import proofs.«102576_j28432683499905_1_alg».proof.Proof.KStats
import proofs.«102576_j28432683499905_1_alg».proof.Proof.RefStages
import proofs.«102576_j28432683499905_1_alg».proof.Proof.RefReadA
import proofs.«102576_j28432683499905_1_alg».proof.Proof.RefReadB
import proofs.«102576_j28432683499905_1_alg».proof.Proof.RefFinite
import proofs.«102576_j28432683499905_1_alg».proof.Proof.LibReal

set_option maxRecDepth 16384

noncomputable section

namespace Cert.Bridge

open Idealize.ShloMosaic Idealize.ShloMosaic.ValueIdx
open Cert.GinMath
open Cert.KernelIdeal (S100000x64 S2x1600000 S1600000 S64x128 S128 S128x128 S100000x128 S1x128)
open Cert.KernelIdeal.KVal
open Cert.ReferenceIdeal.RefValue

variable (x : FVec Ideal S100000x64 .f32) (ei : IVec S2x1600000 32) (w : FVec Ideal S1600000 .f32)
  (W1 : FVec Ideal S64x128 .f32) (b1 g b : FVec Ideal S128 .f32) (W2 : FVec Ideal S128x128 .f32) (b2 : FVec Ideal S128 .f32)

/-- The aggregated node features are built by the same operations in both programs. -/
theorem out_eq : outK (F := Ideal) x ei w = outOf (F := Ideal) x ei w := rfl

/-- The first linear layer, read tile by tile in the kernel, is the reference's whole-array one. -/
theorem h_eq : hK x ei w W1 b1 = hOf (F := Ideal) (outOf (F := Ideal) x ei w) W1 b1 := by
  funext i
  obtain ⟨p, k, rfl⟩ : ∃ (p : Fin 100000) (k : Fin 128), i = ix2 p k := ⟨i 0, i 1, eq_ix2 i⟩
  refine Eq.trans (show hK x ei w W1 b1 (ix2 p k)
      = (∑ l : Fin 64, outK (F := Ideal) x ei w (ix2 p l) * W1 (ix2 l k)) + rowK (F := Ideal) b1 (ix2 (0 : Fin 1) k) from rfl) ?_
  rw [rowK_apply, out_eq, hOf_apply]

/-- Every entry of the first layer's output is finite when the node features, the edge weights, the first weights
    and the first bias are. -/
theorem h_isReal (hx : ∀ i, IsReal (x i)) (hw : ∀ i, IsReal (w i)) (hW1 : ∀ i, IsReal (W1 i)) (hb1 : ∀ i, IsReal (b1 i)) :
    ∀ i, IsReal (hOf (F := Ideal) (outOf (F := Ideal) x ei w) W1 b1 i) := by
  intro i
  obtain ⟨p, k, rfl⟩ : ∃ (p : Fin 100000) (k : Fin 128), i = ix2 p k := ⟨i 0, i 1, eq_ix2 i⟩
  rw [hOf_apply]
  exact IsReal.add (IsReal.sum fun l _ => IsReal.mul (outOf_isReal x ei w hx hw _) (hW1 _)) (hb1 _)

/-- THE RESULTS AGREE: under finite inputs the kernel program's result is the reference's. -/
theorem result_eq (hx : ∀ i, IsReal (x i)) (hw : ∀ i, IsReal (w i)) (hW1 : ∀ i, IsReal (W1 i)) (hb1 : ∀ i, IsReal (b1 i)) :
    kernelResult x ei w W1 b1 g b W2 b2 = result (F := Ideal) x ei w W1 b1 g b W2 b2 := by
  have hfin := h_isReal x ei w W1 b1 hx hw hW1 hb1
  unfold kernelResult result
  rw [h_eq]
  generalize hOf (F := Ideal) (outOf (F := Ideal) x ei w) W1 b1 = hR at hfin ⊢
  funext i
  obtain ⟨p, j, rfl⟩ : ∃ (p : Fin 100000) (j : Fin 128), i = ix2 p j := ⟨i 0, i 1, eq_ix2 i⟩
  rw [G1_at hR _ _ _ _ _ _ (ix2 p j) p j rfl rfl, resultOf_apply]
  unfold row1
  refine congrArg₂ (· + ·) (Finset.sum_congr rfl fun k _ => congrArg₂ (· * ·) (congrArg (max · _) ?_) rfl) (rowK_apply b2 j)
  have mean_eq : meanK (F := Ideal) (S1of hR) (ix2 (0 : Fin 1) k) = meanOf (F := Ideal) hR (ix1 k) :=
    (mean_bridge hR k).trans (meanOf_apply hR k).symm
  have var_eq : varK (F := Ideal) (S1of hR) (S2of hR) (ix2 (0 : Fin 1) k) = varOf (F := Ideal) hR (ix1 k) :=
    (var_bridge hR hfin k).trans (varOf_apply hR k).symm
  beta_reduce
  rw [normOf_apply, mean_eq, var_eq, rowK_apply, rowK_apply]

end Cert.Bridge

end
-- ==== Proof.lean ====
/-
  The certificate's claim: the Pallas program (a graph aggregation on the host, then Linear → BatchNorm over the
  batch → ReLU → Linear in two row-tiled pallas_calls) and the jnp reference are one function at the ideal values.

  Frames: the two kernel programs' are the launch of their four segments; the reference's is its straight line of
  host operations. The idealization rewrote nothing. For the values, each program's run is read back as a function
  of the argument arrays, and the two functions agree index by index: everything but the batch variance by
  re-grouping sums, the variance — mean of squares minus squared mean in the kernel, mean squared deviation in the
  reference — because the precondition makes every entry of the first layer's output finite.
-/
import proofs.«102576_j28432683499905_1_alg».proof.Defs
import proofs.«102576_j28432683499905_1_alg».proof.Proof.Gen.Kernel
import proofs.«102576_j28432683499905_1_alg».proof.Proof.Gen.Kernel.Skeleton
import proofs.«102576_j28432683499905_1_alg».proof.Proof.Gen.Kernel.Launch
import proofs.«102576_j28432683499905_1_alg».proof.Proof.Gen.Kernel.Points
import proofs.«102576_j28432683499905_1_alg».proof.Proof.Gen.Kernel.Frame
import proofs.«102576_j28432683499905_1_alg».proof.Proof.Gen.KernelIdeal
import proofs.«102576_j28432683499905_1_alg».proof.Proof.Gen.KernelIdeal.Skeleton
import proofs.«102576_j28432683499905_1_alg».proof.Proof.Gen.KernelIdeal.Launch
import proofs.«102576_j28432683499905_1_alg».proof.Proof.Gen.KernelIdeal.Points
import proofs.«102576_j28432683499905_1_alg».proof.Proof.Gen.KernelIdeal.Frame
import proofs.«102576_j28432683499905_1_alg».proof.Proof.Gen.ReferenceIdeal
import proofs.«102576_j28432683499905_1_alg».proof.Proof.Gen.Pre_finite_inputs
import proofs.«102576_j28432683499905_1_alg».proof.Proof.KFinal
import proofs.«102576_j28432683499905_1_alg».proof.Proof.RefValue
import proofs.«102576_j28432683499905_1_alg».proof.Proof.PreFinite
import proofs.«102576_j28432683499905_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefValue.frame

theorem preserves : Cert.preserves_Kernel_KernelIdeal := trivial

/-- From memories agreeing on the arguments both programs run, and the reference's result array is the kernel
    program's: each run read back as a function of the arguments, the functions equal under the precondition. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9⟩ := hagree c
  rw [a0, a1, a3, a4, a5, a6, a7, a8, a9]
  obtain ⟨hx, hw, hW1, hb1⟩ := Cert.GinMath.finite_of_pre _ _ _ _ _ _ _ _ _ _ (hpre c)
  exact (Cert.Bridge.result_eq _ _ _ _ _ _ _ _ _ hx hw hW1 hb1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
